-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg7 : FVec F S64 .f32) (main_arg13 : FVec F S64 .f32) (main_v83 : IVec S_ 1) (main_v84 : FVec F S64 .f32) : IVec S_ 1 :=
  let main_v85 : IVec S64 1 := cmpf .oge main_arg7 main_v84
  let main_c_33 : IVec S_ 1 := constantI S_ 1 1#1
  let main_v86 : IVec S_ 1 := (fun x v => Host.reduce IntOp.andi x v reducesTo_S64_S_d0 h_S_) main_v85 main_c_33
  let main_v87 : IVec S_ 1 := andi main_v83 main_v86
  let main_cst_34 : FVec F S_ .f32 := constant S_ .f32 0x00000000#32
  let main_v88 : FVec F S64 .f32 := broadcastInDim S64 ![] bcast_S_S64 main_cst_34
  let main_v89 : IVec S64 1 := cmpf .oge main_arg13 main_v88
  let main_c_35 : IVec S_ 1 := constantI S_ 1 1#1
  let main_v90 : IVec S_ 1 := (fun x v => Host.reduce IntOp.andi x v reducesTo_S64_S_d0 h_S_) main_v89 main_c_35
  let main_v91 : IVec S_ 1 := andi main_v87 main_v90
  main_v91

def fn_part4 {F : FTy → Type} [FloatOps F] (main_arg7 : FVec F S64 .f32) (main_arg13 : FVec F S64 .f32) (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_cst_32 : FVec F S_ .f32 := constant S_ .f32 0x00000000#32
  let main_v84 : FVec F S64 .f32 := broadcastInDim S64 ![] bcast_S_S64 main_cst_32
  fn_part5 (F := F) main_arg7 main_arg13 main_v83 main_v84

def fn_part3 {F : FTy → Type} [FloatOps F] (main_arg7 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg7 main_arg13 main_arg15 main_arg16 main_arg17 main_v63 main_v67

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg7 main_arg12 main_arg13 main_arg14 main_arg15 main_arg16 main_arg17 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x32 .f32) (main_arg15 : FVec F S32 .f32) (main_arg16 : FVec F S32x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S5000x1 : Shape := ⟨2, ![5000, 1]⟩
abbrev S1x32 : Shape := ⟨2, ![1, 32]⟩
abbrev S1x1 : Shape := ⟨2, ![1, 1]⟩
abbrev S5000x32 : Shape := ⟨2, ![5000, 32]⟩

abbrev nBuf : Space → Nat
  | .hbm => 118
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S1x64, .f32⟩
  | .hbm, ⟨75, _⟩ => ⟨S100000x64, .f32⟩
  | .hbm, ⟨76, _⟩ => ⟨S100000x64, .bf16⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .bf16⟩
  | .hbm, ⟨86, _⟩ => ⟨S1600000x1, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S100000x64, .f32⟩
  | .hbm, ⟨95, _⟩ => ⟨S1x32, .f32⟩
  | .hbm, ⟨96, _⟩ => ⟨S1x1, .f32⟩
  | .hbm, ⟨97, _⟩ => ⟨S100000x64, .f32⟩
  | .hbm, ⟨98, _⟩ => ⟨S100000x64, .bf16⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x64, .bf16⟩
  | .hbm, ⟨108, _⟩ => ⟨S1600000x1, .f32⟩
  | .hbm, ⟨109, _⟩ => ⟨S1600000x64, .f32⟩
  | .hbm, ⟨110, _⟩ => ⟨S1600000x64, .f32⟩
  | .hbm, ⟨111, _⟩ => ⟨S1600000x64, .f32⟩
  | .hbm, ⟨112, _⟩ => ⟨S_, .f32⟩
  | .hbm, ⟨113, _⟩ => ⟨S100000x64, .f32⟩
  | .hbm, ⟨114, _⟩ => ⟨S1600000x1, .i32⟩
  | .hbm, ⟨115, _⟩ => ⟨S100000x64, .f32⟩
  | .hbm, ⟨116, _⟩ => ⟨S100000x1, .f32⟩
  | .hbm, ⟨117, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S1x64, .f32⟩
  | .local _ .vmem, ⟨27, _⟩ => ⟨S1x64, .f32⟩
  | .local _ .vmem, ⟨28, _⟩ => ⟨S64x32, .f32⟩
  | .local _ .vmem, ⟨29, _⟩ => ⟨S1x32, .f32⟩
  | .local _ .vmem, ⟨30, _⟩ => ⟨S32x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_7 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_10 : Ref sig .tc := ⟨.hbm, 99, rfl⟩
abbrev main_v69 : Ref sig .tc := ⟨.hbm, 100, rfl⟩
abbrev main_v70 : Ref sig .tc := ⟨.hbm, 101, rfl⟩
abbrev main_c_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S1_S1x1 : S1.ShapeCasts S1x1
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x1.size a ≤ S32x1.size a
  hwx3_7 : ∀ i : grid3.Coords, EltTy.bits .f32 = 32 ∨ (Rect.block (s := S32x1) S32x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S100000x1.size a
  hwx3_9 : ∀ i : grid3.Coords, EltTy.bits .f32 = 32 ∨ (Rect.block (s := S100000x1) S5000x1.size (cc3_transform_9 i) (hinb3_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S32x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v66) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S5000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64x32, .f32⟩
  | 15 => ⟨S32, .f32⟩
  | 16 => ⟨S32x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000x64, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S1600000, .f32⟩
  | 125 => ⟨S1600000x1, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000, .f32⟩
  | 14 => ⟨S100000x1, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S64, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000x32, .f32⟩
  | 46 => ⟨S100000x32, .f32⟩
  | 47 => ⟨S100000x1, .f32⟩
  | 48 => ⟨S1x1, .f32⟩
  | 49 => ⟨S100000x1, .f32⟩
  | 50 => ⟨S100000x1, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S_, .f32⟩
  | 57 => ⟨S100000x1, .f32⟩
  | 58 => ⟨S100000x1, .f32⟩
  | 59 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call0_cst : Ref sig .tc := ⟨.hbm, 92, rfl⟩
abbrev main_call0_v0 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_c_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_16 : Ref sig .tc := ⟨.hbm, 126, rfl⟩
abbrev main_v88 : Ref sig .tc := ⟨.hbm, 127, rfl⟩
abbrev main_v89 : Ref sig .tc := ⟨.hbm, 128, rfl⟩
abbrev main_c_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_19 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_call1_cst : Ref sig .tc := ⟨.hbm, 165, rfl⟩
abbrev main_call1_v0 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_call2_cst : Ref sig .tc := ⟨.hbm, 172, rfl⟩
abbrev main_call2_v0 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_20 : Ref sig .tc := ⟨.hbm, 181, rfl⟩
abbrev main_v135 : Ref sig .tc := ⟨.hbm, 182, rfl⟩
abbrev main_v136 : Ref sig .tc := ⟨.hbm, 183, rfl⟩
abbrev main_cst_21 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.ResultRun.lean ====
/-
  The idealized kernel's run with its result named.

  The program is nine segments: five stretches of host operations around four row-blocked regions.  The buffer
  contents at each boundary form a fold from the launch memory: a stretch applies its operations, a region replaces
  its arrays by what its write-backs leave and keeps every other buffer.  Every weakly fair execution terminates
  with every unscoped buffer at the last fold's contents; read at the result buffer this names the result, and read
  at the argument buffers it says they are unchanged.
-/
import proofs.«166785_j7679401525531_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v84 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.ResultRun

end
-- ==== Proof.Boundaries.lean ====
/-
  What a buffer holds when a region is entered.

  The buffer contents at the boundaries between the program's segments form a fold from the launch memory.  A stretch
  of host operations changes only the buffers its operations write; a region changes only its output arrays and leaves
  its input arrays and every other buffer as they were.  So a buffer read at a later boundary holds what it held at
  the boundary right after the operation that wrote it (or at the launch, for an argument).  Each lemma here walks one
  buffer back through the segments that do not write it.
-/
import proofs.«166785_j7679401525531_2_alg».proof.Proof.Gen.KernelIdeal.Frame

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- `main_arg0` holds at boundary 1 what it held at boundary 0: nothing in between writes it. -/
theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg2` holds at boundary 1 what it held at boundary 0: nothing in between writes it. -/
theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_v48` holds at boundary 3 what it held at boundary 2: nothing in between writes it. -/
theorem v48_at3 (c : Dev nD) : W3 m ρ c (Proc.devRef .tc main_v48) = W2 m ρ c (Proc.devRef .tc main_v48) :=
  calc W3 m ρ c (Proc.devRef .tc main_v48)
    _ = W2 m ρ c (Proc.devRef .tc main_v48) := StableHlo.after_of_forall_not_mem (b := Proc.devRef .tc main_v48) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v27` holds at boundary 3 what it held at boundary 1: nothing in between writes it. -/
theorem v27_at3 (c : Dev nD) : W3 m ρ c (Proc.devRef .tc main_v27) = W1 m ρ c (Proc.devRef .tc main_v27) :=
  calc W3 m ρ c (Proc.devRef .tc main_v27)
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

/-- `main_v32` holds at boundary 3 what it held at boundary 1: nothing in between writes it. -/
theorem v32_at3 (c : Dev nD) : W3 m ρ c (Proc.devRef .tc main_v32) = W1 m ρ c (Proc.devRef .tc main_v32) :=
  calc W3 m ρ c (Proc.devRef .tc main_v32)
    _ = W2 m ρ c (Proc.devRef .tc main_v32) := StableHlo.after_of_forall_not_mem (b := Proc.devRef .tc main_v32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v32) := W2_of_ne m ρ c main_v32 (by decide)

/-- `main_v37` holds at boundary 3 what it held at boundary 1: nothing in between writes it. -/
theorem v37_at3 (c : Dev nD) : W3 m ρ c (Proc.devRef .tc main_v37) = W1 m ρ c (Proc.devRef .tc main_v37) :=
  calc W3 m ρ c (Proc.devRef .tc main_v37)
    _ = W2 m ρ c (Proc.devRef .tc main_v37) := StableHlo.after_of_forall_not_mem (b := Proc.devRef .tc main_v37) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v37) := W2_of_ne m ρ c main_v37 (by decide)

/-- `main_v1` holds at boundary 2 what it held at boundary 1: nothing in between writes it. -/
theorem v1_at2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- `main_v3` holds at boundary 2 what it held at boundary 1: nothing in between writes it. -/
theorem v3_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- `main_v25` holds at boundary 2 what it held at boundary 1: nothing in between writes it. -/
theorem v25_at2 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

/-- `main_v64` holds at boundary 5 what it held at boundary 4: nothing in between writes it. -/
theorem v64_at5 (c : Dev nD) : W5 m ρ c (Proc.devRef .tc main_v64) = W4 m ρ c (Proc.devRef .tc main_v64) :=
  calc W5 m ρ c (Proc.devRef .tc main_v64)
    _ = W4 m ρ c (Proc.devRef .tc main_v64) := StableHlo.after_of_forall_not_mem (b := Proc.devRef .tc main_v64) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg8` holds at boundary 5 what it held at boundary 0: nothing in between writes it. -/
theorem arg8_at5 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_v67` holds at boundary 7 what it held at boundary 6: nothing in between writes it. -/
theorem v67_at7 (c : Dev nD) : W7 m ρ c (Proc.devRef .tc main_v67) = W6 m ρ c (Proc.devRef .tc main_v67) :=
  calc W7 m ρ c (Proc.devRef .tc main_v67)
    _ = W6 m ρ c (Proc.devRef .tc main_v67) := StableHlo.after_of_forall_not_mem (b := Proc.devRef .tc main_v67) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v27` holds at boundary 7 what it held at boundary 1: nothing in between writes it. -/
theorem v27_at7 (c : Dev nD) : W7 m ρ c (Proc.devRef .tc main_v27) = W1 m ρ c (Proc.devRef .tc main_v27) :=
  calc W7 m ρ c (Proc.devRef .tc main_v27)
    _ = W6 m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v27) := W6_of_ne m ρ c main_v27 (by decide)
    _ = W4 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v27) := (W4_arr m ρ c 2).trans (((dat1 (V3 m ρ) c).arrAt_in 2 rfl _).trans (A_eq1 (V3 m ρ) c 2))
    _ = W2 m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v27) := W2_of_ne m ρ c main_v27 (by decide)

/-- `main_v42` holds at boundary 7 what it held at boundary 1: nothing in between writes it. -/
theorem v42_at7 (c : Dev nD) : W7 m ρ c (Proc.devRef .tc main_v42) = W1 m ρ c (Proc.devRef .tc main_v42) :=
  calc W7 m ρ c (Proc.devRef .tc main_v42)
    _ = W6 m ρ c (Proc.devRef .tc main_v42) := StableHlo.after_of_forall_not_mem (b := Proc.devRef .tc main_v42) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v42) := W6_of_ne m ρ c main_v42 (by decide)
    _ = W4 m ρ c (Proc.devRef .tc main_v42) := StableHlo.after_of_forall_not_mem (b := Proc.devRef .tc main_v42) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v42) := W4_of_ne m ρ c main_v42 (by decide)
    _ = W2 m ρ c (Proc.devRef .tc main_v42) := StableHlo.after_of_forall_not_mem (b := Proc.devRef .tc main_v42) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v42) := W2_of_ne m ρ c main_v42 (by decide)

/-- `main_v47` holds at boundary 7 what it held at boundary 1: nothing in between writes it. -/
theorem v47_at7 (c : Dev nD) : W7 m ρ c (Proc.devRef .tc main_v47) = W1 m ρ c (Proc.devRef .tc main_v47) :=
  calc W7 m ρ c (Proc.devRef .tc main_v47)
    _ = W6 m ρ c (Proc.devRef .tc main_v47) := StableHlo.after_of_forall_not_mem (b := Proc.devRef .tc main_v47) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v47) := W6_of_ne m ρ c main_v47 (by decide)
    _ = W4 m ρ c (Proc.devRef .tc main_v47) := StableHlo.after_of_forall_not_mem (b := Proc.devRef .tc main_v47) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v47) := W4_of_ne m ρ c main_v47 (by decide)
    _ = W2 m ρ c (Proc.devRef .tc main_v47) := StableHlo.after_of_forall_not_mem (b := Proc.devRef .tc main_v47) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v47) := W2_of_ne m ρ c main_v47 (by decide)

/-- `main_arg14` holds at boundary 7 what it held at boundary 0: nothing in between writes it. -/
theorem arg14_at7 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- `main_arg16` holds at boundary 7 what it held at boundary 0: nothing in between writes it. -/
theorem arg16_at7 (c : Dev nD) : W7 m ρ c (Proc.devRef .tc main_arg16) = m ((c : Thread nD τ).loc main_arg16) :=
  calc W7 m ρ c (Proc.devRef .tc main_arg16)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-- `main_v65` holds at boundary 7 what it held at boundary 5: nothing in between writes it. -/
theorem v65_at7 (c : Dev nD) : W7 m ρ c (Proc.devRef .tc main_v65) = W5 m ρ c (Proc.devRef .tc main_v65) :=
  calc W7 m ρ c (Proc.devRef .tc main_v65)
    _ = W6 m ρ c (Proc.devRef .tc main_v65) := StableHlo.after_of_forall_not_mem (b := Proc.devRef .tc main_v65) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v65) := W6_of_ne m ρ c main_v65 (by decide)

/-- `main_v66` holds at boundary 7 what it held at boundary 5: nothing in between writes it. -/
theorem v66_at7 (c : Dev nD) : W7 m ρ c (Proc.devRef .tc main_v66) = W5 m ρ c (Proc.devRef .tc main_v66) :=
  calc W7 m ρ c (Proc.devRef .tc main_v66)
    _ = W6 m ρ c (Proc.devRef .tc main_v66) := StableHlo.after_of_forall_not_mem (b := Proc.devRef .tc main_v66) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v66) := W6_of_ne m ρ c main_v66 (by decide)

/-- `main_arg15` holds at boundary 4 what it held at boundary 0: nothing in between writes it. -/
theorem arg15_at4 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- `main_arg17` holds at boundary 4 what it held at boundary 0: nothing in between writes it. -/
theorem arg17_at4 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- `main_v1` holds at boundary 6 what it held at boundary 1: nothing in between writes it. -/
theorem v1_at6 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- `main_v3` holds at boundary 6 what it held at boundary 1: nothing in between writes it. -/
theorem v3_at6 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v25` holds at boundary 6 what it held at boundary 1: nothing in between writes it. -/
theorem v25_at6 (c : Dev nD) : W6 m ρ c (Proc.devRef .tc main_v25) = W1 m ρ c (Proc.devRef .tc main_v25) :=
  calc W6 m ρ c (Proc.devRef .tc main_v25)
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

end Cert.KernelIdeal.Boundaries

end
-- ==== Proof.GraphStage.lean ====
/-
  The graph quantities the program computes once, before its first region.

  From the edge list (a row of sources and a row of destinations) the host operations compute the degree of every node
  (incoming edges plus the self loop), its reciprocal square root, the symmetric weight of every edge (the product of
  the two endpoints' reciprocal roots) and the self-loop weight of every node (the square of its reciprocal root).
  The reference computes the same quantities by the same operations, once per layer; each lemma states a buffer of the
  kernel's program at the first region's entry as the reference's own stage of the edge list.
-/
import proofs.«166785_j7679401525531_2_alg».proof.Proof.Boundaries
import proofs.«166785_j7679401525531_2_alg».proof.Proof.Gen.ReferenceIdeal.Read
import Idealize.ShloMosaic.Lib.StableHlo.Run

set_option maxRecDepth 16384

noncomputable section

namespace Cert.KernelIdeal.GraphStage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge sources, as a flat index vector. -/
theorem sources_eq (c : Dev nD) : W1 m ρ c (Proc.devRef .tc main_v1) = Cert.ReferenceIdeal.Read.val_main_v1 (F := F) (m ((c : Thread nD τ).loc main_arg1)) := by
  dsimp only [W1, hostOps0]
  after_results_simp
  rfl

/-- The edge destinations, as a flat index vector. -/
theorem dests_eq (c : Dev nD) : W1 m ρ c (Proc.devRef .tc main_v3) = Cert.ReferenceIdeal.Read.val_main_v3 (F := F) (m ((c : Thread nD τ).loc main_arg1)) := by
  dsimp only [W1, hostOps0]
  after_results_simp
  rfl

/-- The symmetric edge weights, as the reference's first layer computes them. -/
theorem edgeWeight_eq (c : Dev nD) : W1 m ρ c (Proc.devRef .tc main_v25) = Cert.ReferenceIdeal.Read.val_main_v26 (F := F) (m ((c : Thread nD τ).loc main_arg1)) := by
  dsimp only [W1, hostOps0]
  after_results_simp
  rfl

/-- The symmetric edge weights, as the reference's second layer computes them. -/
theorem edgeWeight_eq' (c : Dev nD) : W1 m ρ c (Proc.devRef .tc main_v25) = Cert.ReferenceIdeal.Read.val_main_v86 (F := F) (m ((c : Thread nD τ).loc main_arg1)) := by
  dsimp only [W1, hostOps0]
  after_results_simp
  rfl

/-- The self-loop weights as a column: the squared reciprocal roots of the reference's first layer, one per row. -/
theorem selfWeight_eq (c : Dev nD) : W1 m ρ c (Proc.devRef .tc main_v27)
    = shapeCast S100000x1 (Cert.ReferenceIdeal.Read.val_main_v40 (F := F) (m ((c : Thread nD τ).loc main_arg1))) shapeCasts_S100000_S100000x1 := by
  dsimp only [W1, hostOps0]
  after_results_simp
  rfl

/-- The self-loop weights as a column: the squared reciprocal roots of the reference's second layer, one per row. -/
theorem selfWeight_eq' (c : Dev nD) : W1 m ρ c (Proc.devRef .tc main_v27)
    = shapeCast S100000x1 (Cert.ReferenceIdeal.Read.val_main_v100 (F := F) (m ((c : Thread nD τ).loc main_arg1))) shapeCasts_S100000_S100000x1 := by
  dsimp only [W1, hostOps0]
  after_results_simp
  rfl

end Cert.KernelIdeal.GraphStage

end
-- ==== Proof.EdgeStage.lean ====
/-
  The neighbour aggregation between the regions, and the small reshapes around the last region.

  Between a projection region and the normalisation region that follows it, the host operations gather the projected
  rows at the edge sources, weight each gathered row by its edge's symmetric weight and add it into the row of the
  edge's destination.  The reference aggregates by the same operations on its own projected rows; the kernel's program
  first passes the projected rows through a narrower float format and back, which changes nothing on the extended
  reals.  So once the kernel's projected rows are known to be the reference's, the aggregated rows are the reference's
  too.  The head's two bias vectors enter the last region as single rows, and the program's result is the last
  region's column read as a flat vector.
-/
import proofs.«166785_j7679401525531_2_alg».proof.Proof.Boundaries
import proofs.«166785_j7679401525531_2_alg».proof.Proof.GraphStage
import proofs.«166785_j7679401525531_2_alg».proof.Proof.Gen.ReferenceIdeal.Read
import Idealize.ShloMosaic.Lib.StableHlo.Run

set_option maxRecDepth 16384

noncomputable section

namespace Cert.KernelIdeal.EdgeStage

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 1000000 in
/-- Layer 1: if the first projection's rows are the reference's, the rows aggregated over the edges are the
    reference's. -/
theorem aggregate1_eq (c : Dev nD)
    (hproj : W2 m ρ c (Proc.devRef .tc main_v48) = Cert.ReferenceIdeal.Read.val_main_v4 (F := Ideal) (m ((c : Thread nD τ).loc main_arg0)) (m ((c : Thread nD τ).loc main_arg2))) :
    W3 m ρ c (Proc.devRef .tc main_v63) = Cert.ReferenceIdeal.Read.val_main_v39 (F := Ideal) (m ((c : Thread nD τ).loc main_arg0)) (m ((c : Thread nD τ).loc main_arg1)) (m ((c : Thread nD τ).loc main_arg2)) := by
  dsimp only [W3, hostOps1]
  after_results_simp
  rw [Boundaries.v3_at2, Boundaries.v25_at2, Boundaries.v1_at2, GraphStage.dests_eq, GraphStage.edgeWeight_eq,
    GraphStage.sources_eq, hproj]
  rfl

set_option maxHeartbeats 1000000 in
/-- Layer 2: if the second projection's rows are the reference's, the rows aggregated over the edges are the
    reference's. -/
theorem aggregate2_eq (c : Dev nD)
    (hproj : W6 m ρ c (Proc.devRef .tc main_v67) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W7 m ρ c (Proc.devRef .tc main_v82) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W7, hostOps3]
  after_results_simp
  rw [Boundaries.v3_at6, Boundaries.v25_at6, Boundaries.v1_at6, GraphStage.dests_eq, GraphStage.edgeWeight_eq',
    GraphStage.sources_eq, hproj]
  rfl

/-- The first head bias enters the last region as a single row. -/
theorem headBias1_eq (c : Dev nD) : W5 m ρ c (Proc.devRef .tc main_v65)
    = shapeCast S1x32 (W4 m ρ c (Proc.devRef .tc main_arg15)) shapeCasts_S32_S1x32 := by
  dsimp only [W5, hostOps2]
  after_results
  rfl

/-- The second head bias enters the last region as a single entry. -/
theorem headBias2_eq (c : Dev nD) : W5 m ρ c (Proc.devRef .tc main_v66)
    = shapeCast S1x1 (W4 m ρ c (Proc.devRef .tc main_arg17)) shapeCasts_S1_S1x1 := by
  dsimp only [W5, hostOps2]
  after_results
  rfl

/-- The program's result is the last region's column read as a flat vector. -/
theorem result_eq (c : Dev nD) : W9 m ρ c (Proc.devRef .tc main_v84)
    = shapeCast S100000 (W8 m ρ c (Proc.devRef .tc main_v83)) shapeCasts_S100000x1_S100000 := by
  dsimp only [W9, hostOps4]
  after_results
  rfl

end Cert.KernelIdeal.EdgeStage

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.HeadRows.lean ====
/-
  The fused head of the network, read one row at a time.

  Each row p of a block carries 64 aggregated features A(p, ·), 64 projected features h(p, ·) and one per-row
  weight s(p). The body forms, lane by lane,

      t(p, k1)   = max ((A(p, k1) + s(p) * h(p, k1)) * scale(k1) + shift(k1), 0)        (self-loop, affine map, ReLU)
      mid(p, k2) = max (sum over k1 of t(p, k1) * Wc1(k1, k2) + bc1(k2), 0)              (first layer of the head)
      out(p)     = sum over k2 of mid(p, k2) * Wc2(k2, 0) + bc2                          (second layer)

  and stores the logistic of out(p). At the extended reals a change of float format is the identity and a matrix
  product into the zero matrix is the plain sum, so each stage is exactly the displayed formula. A row of the result
  depends only on the same row of A, h and s (and on all of the small parameter arrays): that is what lets a block
  of rows be read as rows of one whole-array function.
-/
import proofs.«166785_j7679401525531_2_alg».proof.Proof.Gen.KernelIdeal.Skeleton
import proofs.«166785_j7679401525531_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.HeadRows

open Idealize.ShloMosaic Idealize.ShloMosaic.ValueIdx Cert.KernelIdeal Cert.KernelIdeal.Gen

/-! ## Broadcasts read at an index -/

/-- A column broadcast along the lanes holds, in every lane of row p, the column's entry of row p. -/
theorem bcastCol_apply {α : Type} {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- A single row broadcast down the rows holds, in lane q of every row, the row's entry of lane q. -/
theorem bcastRow_apply {α : Type} {B n : Nat} (y : (⟨2, ![1, n]⟩ : Shape).Idx → α)
    (h : Shape.Broadcasts (⟨2, ![1, n]⟩ : Shape) (⟨2, ![B, n]⟩ : Shape)) (p : Fin B) (q : Fin n) :
    broadcastTo (⟨2, ![B, n]⟩ : Shape) y h (ix2 p q) = y (ix2 (0 : Fin 1) q) :=
  broadcastTo_apply y h (ix2 p q) (ix2 (0 : Fin 1) q) (fun a => match a with
    | ⟨0, _⟩ => by
        show 0 = if (1 : Nat) = 1 then 0 else p.val
        rw [if_pos rfl]
    | ⟨1, _⟩ => by
        show q.val = if n = 1 then 0 else q.val
        split
        · have := q.isLt; omega
        · rfl)

/-! ## The three stages, as the body spells them -/

/-- The normalised rows: the self-loop add, the folded affine map and the ReLU. -/
def normRows (A : Vec Ideal S5000x64 .f32) (s : Vec Ideal S5000x1 .f32) (h : Vec Ideal S5000x64 .f32)
    (scale shift : Vec Ideal S1x64 .f32) : FVec Ideal S5000x64 .f32 :=
  maximumf
    (addf
      (mulf
        (addf (shapeCast S5000x64 A shapeCasts_S5000x64_S5000x64)
          (mulf (broadcastTo S5000x64 (shapeCast S5000x1 s shapeCasts_S5000x1_S5000x1) broadcasts_S5000x1_S5000x64)
            (shapeCast S5000x64 h shapeCasts_S5000x64_S5000x64)))
        (broadcastTo S5000x64 (shapeCast S1x64 scale shapeCasts_S1x64_S1x64) broadcasts_S1x64_S5000x64))
      (broadcastTo S5000x64 (shapeCast S1x64 shift shapeCasts_S1x64_S1x64) broadcasts_S1x64_S5000x64))
    (broadcast S5000x64 (Scalar.ofBits (F := Ideal) .f32 0x00000000#32))

/-- The hidden rows: the first layer of the head, its bias and the ReLU. -/
def hiddenRows (t : FVec Ideal S5000x64 .f32) (Wc1 : Vec Ideal S64x32 .f32) (bc1 : Vec Ideal S1x32 .f32) :
    FVec Ideal S5000x32 .f32 :=
  maximumf
    (addf
      (matmul dot_S5000x64_S64x32_S5000x32_1_0_0_1_n_n none (truncf .bf16 t bitsLt_bf16_f32)
        (truncf .bf16 Wc1 bitsLt_bf16_f32) (constant S5000x32 .f32 0x00000000#32))
      (broadcastTo S5000x32 (shapeCast S1x32 bc1 shapeCasts_S1x32_S1x32) broadcasts_S1x32_S5000x32))
    (broadcast S5000x32 (Scalar.ofBits (F := Ideal) .f32 0x00000000#32))

/-- The score column: the second layer of the head and its bias. -/
def scoreRows (mid : FVec Ideal S5000x32 .f32) (Wc2 : Vec Ideal S32x1 .f32) (bc2 : Vec Ideal S1x1 .f32) :
    FVec Ideal S5000x1 .f32 :=
  addf
    (matmul dot_S5000x32_S32x1_S5000x1_1_0_0_1_n_n none (truncf .bf16 mid bitsLt_bf16_f32)
      (truncf .bf16 Wc2 bitsLt_bf16_f32) (constant S5000x1 .f32 0x00000000#32))
    (broadcastTo S5000x1 (shapeCast S1x1 bc2 shapeCasts_S1x1_S1x1) broadcasts_S1x1_S5000x1)

/-- The body's value up to the second bias add is the three stages composed. -/
theorem pay2_eq (A : Vec Ideal S5000x64 .f32) (s : Vec Ideal S5000x1 .f32) (h : Vec Ideal S5000x64 .f32)
    (scale shift : Vec Ideal S1x64 .f32) (Wc1 : Vec Ideal S64x32 .f32) (bc1 : Vec Ideal S1x32 .f32)
    (Wc2 : Vec Ideal S32x1 .f32) (bc2 : Vec Ideal S1x1 .f32) :
    k3_pay2 (F := Ideal) A s h scale shift Wc1 bc1 Wc2 bc2
      = scoreRows (hiddenRows (normRows A s h scale shift) Wc1 bc1) Wc2 bc2 := rfl

/-! ## Each stage at an index -/

/-- Entry (p, k) of the normalised rows. -/
theorem normRows_apply (A : Vec Ideal S5000x64 .f32) (s : Vec Ideal S5000x1 .f32) (h : Vec Ideal S5000x64 .f32)
    (scale shift : Vec Ideal S1x64 .f32) (p : Fin 5000) (k : Fin 64) :
    normRows A s h scale shift (ix2 p k)
      = max ((A (ix2 p k) + s (ix2 p (0 : Fin 1)) * h (ix2 p k)) * scale (ix2 (0 : Fin 1) k)
          + shift (ix2 (0 : Fin 1) k)) 0 := by
  unfold normRows
  simp only [shapeCast_self]
  show max ((A (ix2 p k) + broadcastTo S5000x64 s broadcasts_S5000x1_S5000x64 (ix2 p k) * h (ix2 p k))
        * broadcastTo S5000x64 scale broadcasts_S1x64_S5000x64 (ix2 p k)
      + broadcastTo S5000x64 shift broadcasts_S1x64_S5000x64 (ix2 p k)) (Ideal.ofBits .f32 0x00000000#32) = _
  rw [bcastCol_apply s, bcastRow_apply scale, bcastRow_apply shift, Ideal.ofBits_zero_f32]

/-! The two matrix products contract the lanes of the left operand against the rows of the right one. -/

theorem dot1_l0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem dot1_l1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem dot1_r0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem dot1_r1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

theorem dot2_l0 (j : S5000x1.Idx) (q : dot_S5000x32_S32x1_S5000x1_1_0_0_1_n_n.contr.Idx) :
    (dot_S5000x32_S32x1_S5000x1_1_0_0_1_n_n.lhsIdx j q 0).val = (j 0).val := by
  unfold DotDims.lhsIdx
  rw [dif_neg (show ¬(0 : Fin S5000x32.rank) ∈ dot_S5000x32_S32x1_S5000x1_1_0_0_1_n_n.lhsBatch by decide),
    dif_pos (show (0 : Fin S5000x32.rank) ∈ dot_S5000x32_S32x1_S5000x1_1_0_0_1_n_n.lhsNonContracting by decide)]
  rfl
theorem dot2_l1 (j : S5000x1.Idx) (q : dot_S5000x32_S32x1_S5000x1_1_0_0_1_n_n.contr.Idx) :
    (dot_S5000x32_S32x1_S5000x1_1_0_0_1_n_n.lhsIdx j q 1).val = (q ⟨0, by decide⟩).val :=
  dot_S5000x32_S32x1_S5000x1_1_0_0_1_n_n.lhsIdx_val_of_single rfl j q
theorem dot2_r0 (j : S5000x1.Idx) (q : dot_S5000x32_S32x1_S5000x1_1_0_0_1_n_n.contr.Idx) :
    (dot_S5000x32_S32x1_S5000x1_1_0_0_1_n_n.rhsIdx j q 0).val = (q ⟨0, by decide⟩).val :=
  dot_S5000x32_S32x1_S5000x1_1_0_0_1_n_n.rhsIdx_val_of_single rfl j q
theorem dot2_r1 (j : S5000x1.Idx) (q : dot_S5000x32_S32x1_S5000x1_1_0_0_1_n_n.contr.Idx) :
    (dot_S5000x32_S32x1_S5000x1_1_0_0_1_n_n.rhsIdx j q 1).val = (j 1).val := by
  unfold DotDims.rhsIdx
  rw [dif_neg (show ¬(1 : Fin S32x1.rank) ∈ dot_S5000x32_S32x1_S5000x1_1_0_0_1_n_n.rhsBatch by decide),
    dif_pos (show (1 : Fin S32x1.rank) ∈ dot_S5000x32_S32x1_S5000x1_1_0_0_1_n_n.rhsNonContracting by decide)]
  rfl

/-- Entry (p, k2) of the hidden rows. -/
theorem hiddenRows_apply (t : FVec Ideal S5000x64 .f32) (Wc1 : Vec Ideal S64x32 .f32) (bc1 : Vec Ideal S1x32 .f32)
    (p : Fin 5000) (k2 : Fin 32) :
    hiddenRows t Wc1 bc1 (ix2 p k2)
      = max ((∑ k1 : Fin 64, t (ix2 p k1) * Wc1 (ix2 k1 k2)) + bc1 (ix2 (0 : Fin 1) k2)) 0 := by
  unfold hiddenRows
  simp only [shapeCast_self]
  show max (matmul dot_S5000x64_S64x32_S5000x32_1_0_0_1_n_n none (truncf .bf16 t bitsLt_bf16_f32)
          (truncf .bf16 Wc1 bitsLt_bf16_f32) (constant (F := Ideal) S5000x32 .f32 0x00000000#32) (ix2 p k2)
        + broadcastTo S5000x32 bc1 broadcasts_S1x32_S5000x32 (ix2 p k2)) (Ideal.ofBits .f32 0x00000000#32) = _
  rw [bcastRow_apply bc1, Ideal.ofBits_zero_f32]
  refine congrArg (fun x => max (x + bc1 (ix2 (0 : Fin 1) k2)) 0) ?_
  exact (Cert.PlainMatmul.matmul_zero_apply (M := 5000) (K := 64) (N := 32)
    dot_S5000x64_S64x32_S5000x32_1_0_0_1_n_n rfl rfl dot1_l0 dot1_l1 dot1_r0 dot1_r1 none
    (truncf .bf16 t bitsLt_bf16_f32) (truncf .bf16 Wc1 bitsLt_bf16_f32) p k2).trans
    (Finset.sum_congr rfl fun k1 _ => rfl)

/-- Entry p of the score column. -/
theorem scoreRows_apply (mid : FVec Ideal S5000x32 .f32) (Wc2 : Vec Ideal S32x1 .f32) (bc2 : Vec Ideal S1x1 .f32)
    (p : Fin 5000) :
    scoreRows mid Wc2 bc2 (ix2 p (0 : Fin 1))
      = (∑ k2 : Fin 32, mid (ix2 p k2) * Wc2 (ix2 k2 (0 : Fin 1))) + bc2 (ix2 (0 : Fin 1) (0 : Fin 1)) := by
  unfold scoreRows
  simp only [shapeCast_self]
  show matmul dot_S5000x32_S32x1_S5000x1_1_0_0_1_n_n none (truncf .bf16 mid bitsLt_bf16_f32)
          (truncf .bf16 Wc2 bitsLt_bf16_f32) (constant (F := Ideal) S5000x1 .f32 0x00000000#32) (ix2 p (0 : Fin 1))
        + broadcastTo S5000x1 bc2 broadcasts_S1x1_S5000x1 (ix2 p (0 : Fin 1)) = _
  rw [bcastRow_apply bc2]
  refine congrArg (fun x => x + bc2 (ix2 (0 : Fin 1) (0 : Fin 1))) ?_
  exact (Cert.PlainMatmul.matmul_zero_apply (M := 5000) (K := 32) (N := 1)
    dot_S5000x32_S32x1_S5000x1_1_0_0_1_n_n rfl rfl dot2_l0 dot2_l1 dot2_r0 dot2_r1 none
    (truncf .bf16 mid bitsLt_bf16_f32) (truncf .bf16 Wc2 bitsLt_bf16_f32) p (0 : Fin 1)).trans
    (Finset.sum_congr rfl fun k2 _ => rfl)

/-! ## One row of the result -/

/-- Row r of the result as a function of the whole arrays: the three stages of row r, then the logistic. -/
def headRow (A h : S100000x64.Idx → EReal) (s : S100000x1.Idx → EReal) (scale shift : S1x64.Idx → EReal)
    (Wc1 : S64x32.Idx → EReal) (bc1 : S1x32.Idx → EReal) (Wc2 : S32x1.Idx → EReal) (bc2 : S1x1.Idx → EReal)
    (r : Fin 100000) : EReal :=
  Ideal.logistic ((∑ k2 : Fin 32, (max ((∑ k1 : Fin 64, (max ((A (ix2 r k1) + s (ix2 r (0 : Fin 1)) * h (ix2 r k1))
      * scale (ix2 (0 : Fin 1) k1) + shift (ix2 (0 : Fin 1) k1)) 0) * Wc1 (ix2 k1 k2)) + bc1 (ix2 (0 : Fin 1) k2)) 0)
      * Wc2 (ix2 k2 (0 : Fin 1))) + bc2 (ix2 (0 : Fin 1) (0 : Fin 1)))

/-- Row q of the block whose first row is row 5000 * b of the arrays. -/
def rowOf (b : Nat) (hb : b < 20) (q : Fin 5000) : Fin 100000 := ⟨b * 5000 + q.val, by have := q.isLt; omega⟩

/-- What the body stores in row q of its block: when the block's rows of A, h and s are rows
    5000 b + q of the arrays and the parameter blocks are the parameter arrays, it is row 5000 b + q of the result. -/
theorem stored_row (b : Nat) (hb : b < 20)
    (x0 x1 : Vec Ideal S5000x64 .f32) (x2 : Vec Ideal S5000x1 .f32) (x3 x4 : Vec Ideal S1x64 .f32)
    (x5 : Vec Ideal S64x32 .f32) (x6 : Vec Ideal S1x32 .f32) (x7 : Vec Ideal S32x1 .f32) (x8 : Vec Ideal S1x1 .f32)
    (A h : S100000x64.Idx → EReal) (s : S100000x1.Idx → EReal) (scale shift : S1x64.Idx → EReal)
    (Wc1 : S64x32.Idx → EReal) (bc1 : S1x32.Idx → EReal) (Wc2 : S32x1.Idx → EReal) (bc2 : S1x1.Idx → EReal)
    (h0 : ∀ (q : Fin 5000) (k : Fin 64), x0 (ix2 q k) = A (ix2 (rowOf b hb q) k))
    (h1 : ∀ (q : Fin 5000) (k : Fin 64), x1 (ix2 q k) = h (ix2 (rowOf b hb q) k))
    (h2 : ∀ q : Fin 5000, x2 (ix2 q (0 : Fin 1)) = s (ix2 (rowOf b hb q) (0 : Fin 1)))
    (h3 : x3 = scale) (h4 : x4 = shift) (h5 : x5 = Wc1) (h6 : x6 = bc1) (h7 : x7 = Wc2) (h8 : x8 = bc2)
    (q : Fin 5000) :
    k3_pay1 (F := Ideal) (k3_pay2 (F := Ideal) x0 x2 x1 x3 x4 x5 x6 x7 x8) (ix2 q (0 : Fin 1))
      = headRow A h s scale shift Wc1 bc1 Wc2 bc2 (rowOf b hb q) := by
  subst h3 h4 h5 h6 h7 h8
  show Ideal.logistic (k3_pay2 (F := Ideal) x0 x2 x1 x3 x4 x5 x6 x7 x8 (ix2 q (0 : Fin 1))) = _
  rw [pay2_eq, scoreRows_apply]
  simp only [hiddenRows_apply, normRows_apply, h0, h1, h2]
  rfl

end Cert.KernelIdeal.HeadRows

end
-- ==== Proof.HeadArray.lean ====
/-
  From row blocks to the whole score column.

  The last region walks 20 grid points; point t works on rows 5000 t .. 5000 t + 4999 of the three tall arrays (the
  aggregated features, the projected features, the per-row weights) and on the whole of each small parameter array,
  and writes rows 5000 t .. 5000 t + 4999 of the result column. Since row r of what the body stores depends only on
  row r of the tall arrays, the block written at point t is the restriction to those rows of ONE function of the
  arrays, row r of which is the head's formula at row r. Row r lies in the block of point r / 5000, so the 20 blocks
  cover the column and the column ends holding that function.
-/
import proofs.«166785_j7679401525531_2_alg».proof.Proof.Gen.KernelIdeal.Frame
import proofs.«166785_j7679401525531_2_alg».proof.Proof.HeadRows
import Idealize.ShloMosaic.Lib.Pipeline.Value

noncomputable section

open scoped BigOperators

namespace Cert.KernelIdeal.HeadArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HeadRows

variable (V : (c : Dev nD) → (b : Ref sig .tc) → Buf (Elt Ideal) ((c : Thread nD τ).loc b))

/-! ## The arrays the region reads, as functions of an index -/

/-- The aggregated features, 100000 rows of 64 lanes. -/
abbrev aggRows (c : Dev nD) : S100000x64.Idx → EReal := V c main_v82
/-- The projected features, 100000 rows of 64 lanes. -/
abbrev projRows (c : Dev nD) : S100000x64.Idx → EReal := V c main_v67
/-- The per-row weight of the self loop, a column of 100000 rows. -/
abbrev rowWeight (c : Dev nD) : S100000x1.Idx → EReal := V c main_v27
/-- The folded scale of the normalisation, one row of 64 lanes. -/
abbrev scaleRow (c : Dev nD) : S1x64.Idx → EReal := V c main_v42
/-- The folded shift of the normalisation, one row of 64 lanes. -/
abbrev shiftRow (c : Dev nD) : S1x64.Idx → EReal := V c main_v47
/-- The first matrix of the head, 64 by 32. -/
abbrev headW1 (c : Dev nD) : S64x32.Idx → EReal := V c main_arg14
/-- The first bias of the head, one row of 32 lanes. -/
abbrev headB1 (c : Dev nD) : S1x32.Idx → EReal := V c main_v65
/-- The second matrix of the head, 32 by 1. -/
abbrev headW2 (c : Dev nD) : S32x1.Idx → EReal := V c main_arg16
/-- The second bias of the head, a single entry. -/
abbrev headB2 (c : Dev nD) : S1x1.Idx → EReal := V c main_v66

/-- The score column as ONE function of the arrays: row r is the head's formula at row r. -/
def headColumn (c : Dev nD) : S100000x1.Idx → EReal := fun i =>
  headRow (aggRows V c) (projRows V c) (rowWeight V c) (scaleRow V c) (shiftRow V c) (headW1 V c) (headB1 V c)
    (headW2 V c) (headB2 V c) (i 0)

/-! ## Where each window's block sits at a grid point -/

theorem hz : (![0, 0] : Fin 2 → Nat) = fun _ => 0 := funext fun a => by fin_cases a <;> rfl

/-- The windows' index maps, decided over the 20 points: the three tall inputs and the output are at row block t,
    the six parameter windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-! ## The input blocks as rows of the arrays -/

/-- Row q of the block of aggregated features at point t is row 5000 t + q of the array. -/
theorem aggBlock_apply (c : Dev nD) (t : Fin cfg3.N) (ht : t.val < 20) (q : Fin 5000) (k : Fin 64) :
    (iblk3 V c 0 t : Vec Ideal S5000x64 .f32) (ix2 q k) = aggRows V c (ix2 (rowOf t.val ht q) k) := by
  have hi := idx_facts t
  unfold iblk3
  rw [View.read_apply]
  show V c main_v82 _ = V c main_v82 _
  refine congrArg (aggRows V c) (funext fun a => Fin.ext ?_)
  match a with
  | ⟨0, _⟩ => show win3_0.index t (0 : Fin 2) * 5000 + 1 * q.val = t.val * 5000 + q.val; rw [hi.1]; omega
  | ⟨1, _⟩ => show win3_0.index t (1 : Fin 2) * 64 + 1 * k.val = k.val; rw [hi.2.1]; omega

/-- Row q of the block of projected features at point t is row 5000 t + q of the array. -/
theorem projBlock_apply (c : Dev nD) (t : Fin cfg3.N) (ht : t.val < 20) (q : Fin 5000) (k : Fin 64) :
    (iblk3 V c 1 t : Vec Ideal S5000x64 .f32) (ix2 q k) = projRows V c (ix2 (rowOf t.val ht q) k) := by
  have hi := idx_facts t
  unfold iblk3
  rw [View.read_apply]
  show V c main_v67 _ = V c main_v67 _
  refine congrArg (projRows V c) (funext fun a => Fin.ext ?_)
  match a with
  | ⟨0, _⟩ => show win3_1.index t (0 : Fin 2) * 5000 + 1 * q.val = t.val * 5000 + q.val; rw [hi.2.2.1]; omega
  | ⟨1, _⟩ => show win3_1.index t (1 : Fin 2) * 64 + 1 * k.val = k.val; rw [hi.2.2.2.1]; omega

/-- Row q of the block of row weights at point t is row 5000 t + q of the column. -/
theorem weightBlock_apply (c : Dev nD) (t : Fin cfg3.N) (ht : t.val < 20) (q : Fin 5000) :
    (iblk3 V c 2 t : Vec Ideal S5000x1 .f32) (ix2 q (0 : Fin 1))
      = rowWeight V c (ix2 (rowOf t.val ht q) (0 : Fin 1)) := by
  have hi := idx_facts t
  unfold iblk3
  rw [View.read_apply]
  show V c main_v27 _ = V c main_v27 _
  refine congrArg (rowWeight V c) (funext fun a => Fin.ext ?_)
  match a with
  | ⟨0, _⟩ => show win3_2.index t (0 : Fin 2) * 5000 + 1 * q.val = t.val * 5000 + q.val; rw [hi.2.2.2.2.1]; omega
  | ⟨1, _⟩ => show win3_2.index t (1 : Fin 2) * 1 + 1 * 0 = 0; rw [hi.2.2.2.2.2.1]

/-- The scale window's block is the whole scale row at every point. -/
theorem scaleBlock_eq (c : Dev nD) (t : Fin cfg3.N) : (iblk3 V c 3 t : Vec Ideal S1x64 .f32) = scaleRow V c := by
  have hi := (idx_facts t).2.2.2.2.2.2
  funext y
  unfold iblk3
  rw [View.read_apply]
  show V c main_v42 _ = V c main_v42 y
  refine congrArg (scaleRow V c) (funext fun a => Fin.ext ?_)
  match a with
  | ⟨0, _⟩ => show win3_3.index t (0 : Fin 2) * 1 + 1 * (y 0).val = (y 0).val; rw [hi.1]; omega
  | ⟨1, _⟩ => show win3_3.index t (1 : Fin 2) * 64 + 1 * (y 1).val = (y 1).val; rw [hi.2.1]; omega

/-- The shift window's block is the whole shift row at every point. -/
theorem shiftBlock_eq (c : Dev nD) (t : Fin cfg3.N) : (iblk3 V c 4 t : Vec Ideal S1x64 .f32) = shiftRow V c := by
  have hi := (idx_facts t).2.2.2.2.2.2.2.2
  funext y
  unfold iblk3
  rw [View.read_apply]
  show V c main_v47 _ = V c main_v47 y
  refine congrArg (shiftRow V c) (funext fun a => Fin.ext ?_)
  match a with
  | ⟨0, _⟩ => show win3_4.index t (0 : Fin 2) * 1 + 1 * (y 0).val = (y 0).val; rw [hi.1]; omega
  | ⟨1, _⟩ => show win3_4.index t (1 : Fin 2) * 64 + 1 * (y 1).val = (y 1).val; rw [hi.2.1]; omega

/-- The first head matrix's block is the whole matrix at every point. -/
theorem w1Block_eq (c : Dev nD) (t : Fin cfg3.N) : (iblk3 V c 5 t : Vec Ideal S64x32 .f32) = headW1 V c := by
  have hi := (idx_facts t).2.2.2.2.2.2.2.2.2.2
  funext y
  unfold iblk3
  rw [View.read_apply]
  show V c main_arg14 _ = V c main_arg14 y
  refine congrArg (headW1 V c) (funext fun a => Fin.ext ?_)
  match a with
  | ⟨0, _⟩ => show win3_5.index t (0 : Fin 2) * 64 + 1 * (y 0).val = (y 0).val; rw [hi.1]; omega
  | ⟨1, _⟩ => show win3_5.index t (1 : Fin 2) * 32 + 1 * (y 1).val = (y 1).val; rw [hi.2.1]; omega

/-- The first head bias's block is the whole bias row at every point. -/
theorem b1Block_eq (c : Dev nD) (t : Fin cfg3.N) : (iblk3 V c 6 t : Vec Ideal S1x32 .f32) = headB1 V c := by
  have hi := (idx_facts t).2.2.2.2.2.2.2.2.2.2.2.2
  funext y
  unfold iblk3
  rw [View.read_apply]
  show V c main_v65 _ = V c main_v65 y
  refine congrArg (headB1 V c) (funext fun a => Fin.ext ?_)
  match a with
  | ⟨0, _⟩ => show win3_6.index t (0 : Fin 2) * 1 + 1 * (y 0).val = (y 0).val; rw [hi.1]; omega
  | ⟨1, _⟩ => show win3_6.index t (1 : Fin 2) * 32 + 1 * (y 1).val = (y 1).val; rw [hi.2.1]; omega

/-- The second head matrix's block is the whole matrix at every point. -/
theorem w2Block_eq (c : Dev nD) (t : Fin cfg3.N) : (iblk3 V c 7 t : Vec Ideal S32x1 .f32) = headW2 V c := by
  have hi := (idx_facts t).2.2.2.2.2.2.2.2.2.2.2.2.2.2
  funext y
  unfold iblk3
  rw [View.read_apply]
  show V c main_arg16 _ = V c main_arg16 y
  refine congrArg (headW2 V c) (funext fun a => Fin.ext ?_)
  match a with
  | ⟨0, _⟩ => show win3_7.index t (0 : Fin 2) * 32 + 1 * (y 0).val = (y 0).val; rw [hi.1]; omega
  | ⟨1, _⟩ => show win3_7.index t (1 : Fin 2) * 1 + 1 * (y 1).val = (y 1).val; rw [hi.2.1]; omega

/-- The second head bias's block is the single bias entry at every point. -/
theorem b2Block_eq (c : Dev nD) (t : Fin cfg3.N) : (iblk3 V c 8 t : Vec Ideal S1x1 .f32) = headB2 V c := by
  have hi := (idx_facts t).2.2.2.2.2.2.2.2.2.2.2.2.2.2.2.2
  funext y
  unfold iblk3
  rw [View.read_apply]
  show V c main_v66 _ = V c main_v66 y
  refine congrArg (headB2 V c) (funext fun a => Fin.ext ?_)
  match a with
  | ⟨0, _⟩ => show win3_8.index t (0 : Fin 2) * 1 + 1 * (y 0).val = (y 0).val; rw [hi.1]; omega
  | ⟨1, _⟩ => show win3_8.index t (1 : Fin 2) * 1 + 1 * (y 1).val = (y 1).val; rw [hi.2.1]; omega

/-! ## What each point writes back, the cover, and the column after the region -/

/-- What point t writes back is rows 5000 t .. 5000 t + 4999 of the score column. -/
theorem flushed_eq (c : Dev nD) (t : Fin cfg3.N) :
    (dat3 (F := Ideal) V c).flushed 9 t = ((cfg3.win 9).blk t).view.read (Elt Ideal) (headColumn V c) := by
  have ht : t.val < 20 := lt_of_lt_of_eq t.isLt (show cfg3.N = 20 from N_3)
  have hi := (idx_facts t).2.2.2.2.2.2.2.2.2.2.2.2.2.2.2.2.2.2
  show (cfg3.win 9).cut (grid3.coords t) ((dat3 V c).after 9 t) = _
  rw [after3_9]
  unfold out3_9
  rw [View.canon_unit_zero hz]
  simp only [View.ld_unit_zero (S := S5000x64) hz, View.ld_unit_zero (S := S5000x1) hz,
    View.ld_unit_zero (S := S1x64) hz, View.ld_unit_zero (S := S64x32) hz, View.ld_unit_zero (S := S1x32) hz,
    View.ld_unit_zero (S := S32x1) hz, View.ld_unit_zero (S := S1x1) hz]
  refine funext fun (j : S5000x1.Idx) => ?_
  obtain ⟨q, z, rfl⟩ : ∃ (q : Fin 5000) (z : Fin 1), j = ix2 q z := ⟨j 0, j 1, eq_ix2 j⟩
  obtain rfl : z = 0 := Subsingleton.elim _ _
  show k3_pay1 (F := Ideal) _ (ix2 q (0 : Fin 1)) = _
  refine (stored_row t.val ht (iblk3 V c 0 t) (iblk3 V c 1 t) (iblk3 V c 2 t) (iblk3 V c 3 t) (iblk3 V c 4 t)
    (iblk3 V c 5 t) (iblk3 V c 6 t) (iblk3 V c 7 t) (iblk3 V c 8 t)
    (aggRows V c) (projRows V c) (rowWeight V c) (scaleRow V c) (shiftRow V c) (headW1 V c) (headB1 V c)
    (headW2 V c) (headB2 V c)
    (aggBlock_apply V c t ht) (projBlock_apply V c t ht) (weightBlock_apply V c t ht)
    (scaleBlock_eq V c t) (shiftBlock_eq V c t) (w1Block_eq V c t) (b1Block_eq V c t) (w2Block_eq V c t)
    (b2Block_eq V c t) q).trans ?_
  rw [View.read_apply]
  show _ = headRow (aggRows V c) (projRows V c) (rowWeight V c) (scaleRow V c) (shiftRow V c) (headW1 V c)
    (headB1 V c) (headW2 V c) (headB2 V c) ((((cfg3.win 9).blk t).view.emb (ix2 q (0 : Fin 1))) 0)
  refine congrArg (headRow (aggRows V c) (projRows V c) (rowWeight V c) (scaleRow V c) (shiftRow V c) (headW1 V c)
    (headB1 V c) (headW2 V c) (headB2 V c)) (Fin.ext ?_)
  show t.val * 5000 + q.val = win3_9.index t (0 : Fin 2) * 5000 + 1 * q.val
  rw [hi.1]; omega

/-- Row r of the column lies in the block of point r / 5000. -/
theorem cover (i : S100000x1.Idx) :
    ∃ t : Fin cfg3.N, (cfg3.win 9).flush t = true ∧ i ∈ ((cfg3.win 9).blk t).view.set := by
  have hi0 : (i 0).val < 100000 := idx2_lt0 i
  have hi1 : (i 1).val < 1 := idx2_lt1 i
  obtain ⟨t, ht⟩ : ∃ t : Fin cfg3.N, t.val = (i 0).val / 5000 :=
    ⟨⟨(i 0).val / 5000, by rw [show cfg3.N = 20 from N_3]; omega⟩, rfl⟩
  have hi := (idx_facts t).2.2.2.2.2.2.2.2.2.2.2.2.2.2.2.2.2.2
  refine ⟨t, flush3_9 t, ?_⟩
  show i ∈ ((View.whole main_v83).slice (win3_9.rect t)).set
  rw [View.set_slice_whole, Rect.mem_set_unit]
  intro a
  match a with
  | ⟨0, _⟩ =>
    show win3_9.index t (0 : Fin 2) * 5000 ≤ (i 0).val ∧ (i 0).val < win3_9.index t (0 : Fin 2) * 5000 + 5000
    rw [hi.1, ht]; omega
  | ⟨1, _⟩ =>
    show win3_9.index t (1 : Fin 2) * 1 ≤ (i 1).val ∧ (i 1).val < win3_9.index t (1 : Fin 2) * 1 + 1
    rw [hi.2]; omega

/-- The score column after the region is the head's formula, row by row. -/
theorem column_eq (c : Dev nD) : (dat3 (F := Ideal) V c).arrAt 9 cfg3.N = headColumn V c :=
  (dat3 (F := Ideal) V c).arrAt_eq_of_cover 9 (headColumn V c) (fun t _ => flushed_eq V c t) cover

/-- Entry p of the score column after the region: the logistic of the two-layer head applied to the normalised,
    rectified self-loop sum of row p. -/
theorem column_entry (c : Dev nD) (p : Fin 100000) :
    (dat3 (F := Ideal) V c).arrAt 9 cfg3.N (ix2 p (0 : Fin 1))
      = Ideal.logistic ((∑ k2 : Fin 32, (max ((∑ k1 : Fin 64, (max ((aggRows V c (ix2 p k1)
          + rowWeight V c (ix2 p (0 : Fin 1)) * projRows V c (ix2 p k1)) * scaleRow V c (ix2 (0 : Fin 1) k1)
          + shiftRow V c (ix2 (0 : Fin 1) k1)) 0) * headW1 V c (ix2 k1 k2)) + headB1 V c (ix2 (0 : Fin 1) k2)) 0)
          * headW2 V c (ix2 k2 (0 : Fin 1))) + headB2 V c (ix2 (0 : Fin 1) (0 : Fin 1))) :=
  congrFun (column_eq V c) (ix2 p (0 : Fin 1))

end Cert.KernelIdeal.HeadArray

end
-- ==== Proof.FoldStage.lean ====
/-
  The folded normalisation parameters the program computes once, before its first region.

  For each layer the host operations fold the inference-mode batch normalisation into one scale row,
  weight * rsqrt (variance + ε), and one shift row, (bias - mean) * weight * rsqrt (variance + ε) + offset, each kept
  as a single row.  The reciprocal standard deviation rsqrt (variance + ε) is the reference's own stage of the
  variance; each lemma states a row of the kernel's program at the first region's entry over that stage.
-/
import proofs.«166785_j7679401525531_2_alg».proof.Proof.Boundaries
import proofs.«166785_j7679401525531_2_alg».proof.Proof.Gen.ReferenceIdeal.Read
import Idealize.ShloMosaic.Lib.StableHlo.Run

set_option maxRecDepth 16384

noncomputable section

namespace Cert.KernelIdeal.FoldStage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Layer 1's scale row: weight times reciprocal standard deviation. -/
theorem scale1_eq (c : Dev nD) : W1 m ρ c (Proc.devRef .tc main_v32)
    = shapeCast S1x64 (mulf (m ((c : Thread nD τ).loc main_arg4)) (Cert.ReferenceIdeal.Read.val_main_v53 (F := F) (m ((c : Thread nD τ).loc main_arg7)))) shapeCasts_S64_S1x64 := by
  dsimp only [W1, hostOps0]
  after_results_simp
  rfl

/-- Layer 1's shift row: (bias - mean) * weight * reciprocal standard deviation + offset. -/
theorem shift1_eq (c : Dev nD) : W1 m ρ c (Proc.devRef .tc main_v37)
    = shapeCast S1x64 (addf (mulf (mulf (subf (m ((c : Thread nD τ).loc main_arg3)) (m ((c : Thread nD τ).loc main_arg6))) (m ((c : Thread nD τ).loc main_arg4))) (Cert.ReferenceIdeal.Read.val_main_v53 (F := F) (m ((c : Thread nD τ).loc main_arg7)))) (m ((c : Thread nD τ).loc main_arg5))) shapeCasts_S64_S1x64 := by
  dsimp only [W1, hostOps0]
  after_results_simp
  rfl

/-- Layer 2's scale row. -/
theorem scale2_eq (c : Dev nD) : W1 m ρ c (Proc.devRef .tc main_v42)
    = shapeCast S1x64 (mulf (m ((c : Thread nD τ).loc main_arg10)) (Cert.ReferenceIdeal.Read.val_main_v113 (F := F) (m ((c : Thread nD τ).loc main_arg13)))) shapeCasts_S64_S1x64 := by
  dsimp only [W1, hostOps0]
  after_results_simp
  rfl

/-- Layer 2's shift row. -/
theorem shift2_eq (c : Dev nD) : W1 m ρ c (Proc.devRef .tc main_v47)
    = shapeCast S1x64 (addf (mulf (mulf (subf (m ((c : Thread nD τ).loc main_arg9)) (m ((c : Thread nD τ).loc main_arg12))) (m ((c : Thread nD τ).loc main_arg10))) (Cert.ReferenceIdeal.Read.val_main_v113 (F := F) (m ((c : Thread nD τ).loc main_arg13)))) (m ((c : Thread nD τ).loc main_arg11))) shapeCasts_S64_S1x64 := by
  dsimp only [W1, hostOps0]
  after_results_simp
  rfl

end Cert.KernelIdeal.FoldStage

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.NormaliseRowsBlock.lean ====
/-
  One row block of the normalisation layer, entry by entry.

  The layer takes the aggregated rows `A`, the projected rows `h`, a column `s` with one entry per row, and two rows
  `scale` and `shift` with one entry per lane. On a block of 5000 rows it first adds to every row of `A` the same row of
  `h` multiplied by that row's entry of `s` (the self-loop term), then applies the lane-wise affine map
  `x ↦ x * scale + shift`, and last takes the maximum with zero. Read at row `p` and lane `q` of the block this is

      max ((A p q + s p * h p q) * scale q + shift q) 0

  over the extended reals. The only steps that are not entry-wise are the two broadcasts: the column along the lanes and
  a single row down the rows; each reads, at `(p, q)`, the operand's entry of row `p`, resp. of lane `q`.
-/
import proofs.«166785_j7679401525531_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.NormaliseRows

open Idealize.ShloMosaic Idealize.ShloMosaic.ValueIdx
open Cert.KernelIdeal Cert.KernelIdeal.Gen

/-- A column `[B, 1]` broadcast along `n` lanes holds, in every lane of row `p`, the column's entry of row `p`. -/
theorem broadcastColumn_apply {α : Type} {B n : Nat} (y : (⟨2, ![B, 1]⟩ : Shape).Idx → α)
    (h : (⟨2, ![B, 1]⟩ : Shape).Broadcasts ⟨2, ![B, n]⟩) (p : Fin B) (q : Fin n) :
    broadcastTo ⟨2, ![B, n]⟩ y h (ix2 p q) = y (ix2 p (0 : Fin 1)) := by
  refine broadcastTo_apply y h (ix2 p q) (ix2 p (0 : Fin 1)) fun ax => ?_
  match ax with
  | ⟨0, _⟩ =>
    show p.val = if B = 1 then 0 else p.val
    split
    · have := p.isLt; omega
    · rfl
  | ⟨1, _⟩ => rfl

variable {F : FTy → Type} [FloatOps F]

/-- The block's value as one tree of whole-block operations: the casts of a block to its own shape dropped. -/
theorem blockValue_eq (A : Vec F S5000x64 .f32) (s : Vec F S5000x1 .f32) (h : Vec F S5000x64 .f32)
    (scale shift : Vec F S1x64 .f32) :
    k1_pay1 A s h scale shift
      = maximumf
          (addf (mulf (addf A (mulf (broadcastTo S5000x64 s broadcasts_S5000x1_S5000x64) h))
                  (broadcastTo S5000x64 scale broadcasts_S1x64_S5000x64))
            (broadcastTo S5000x64 shift broadcasts_S1x64_S5000x64))
          (broadcast S5000x64 (Scalar.ofBits .f32 0x00000000#32)) := by
  unfold k1_pay1
  simp only [shapeCast_self]

/-- THE BLOCK AT AN ENTRY, over the extended reals: row `p`, lane `q` of the block holds
    `max ((A p q + s p * h p q) * scale q + shift q) 0`. -/
theorem blockValue_apply (A : Vec Ideal S5000x64 .f32) (s : Vec Ideal S5000x1 .f32) (h : Vec Ideal S5000x64 .f32)
    (scale shift : Vec Ideal S1x64 .f32) (p : Fin 5000) (q : Fin 64) :
    k1_pay1 (F := Ideal) A s h scale shift (ix2 p q)
      = max ((A (ix2 p q) + s (ix2 p (0 : Fin 1)) * h (ix2 p q)) * scale (ix2 (0 : Fin 1) q) + shift (ix2 (0 : Fin 1) q)) 0 := by
  have e1 : broadcastTo S5000x64 s broadcasts_S5000x1_S5000x64 (ix2 p q) = s (ix2 p (0 : Fin 1)) :=
    broadcastColumn_apply s broadcasts_S5000x1_S5000x64 p q
  have e2 : broadcastTo S5000x64 scale broadcasts_S1x64_S5000x64 (ix2 p q) = scale (ix2 (0 : Fin 1) q) :=
    broadcastTo_1b_ab_apply scale broadcasts_S1x64_S5000x64 p q
  have e3 : broadcastTo S5000x64 shift broadcasts_S1x64_S5000x64 (ix2 p q) = shift (ix2 (0 : Fin 1) q) :=
    broadcastTo_1b_ab_apply shift broadcasts_S1x64_S5000x64 p q
  rw [blockValue_eq]
  show max ((A (ix2 p q) + broadcastTo S5000x64 s broadcasts_S5000x1_S5000x64 (ix2 p q) * h (ix2 p q))
        * broadcastTo S5000x64 scale broadcasts_S1x64_S5000x64 (ix2 p q)
        + broadcastTo S5000x64 shift broadcasts_S1x64_S5000x64 (ix2 p q)) (Ideal.ofBits .f32 0x00000000#32) = _
  rw [e1, e2, e3, Ideal.ofBits_zero_f32]

end Cert.KernelIdeal.NormaliseRows

end
-- ==== Proof.NormaliseRows.lean ====
/-
  The normalisation layer over the whole array: from row blocks to the array.

  The layer runs over twenty grid points; point `t` loads rows `5000 t … 5000 t + 4999` of the aggregated rows, of the
  projected rows and of the per-row column, together with the whole scale and shift rows, and writes the same rows of the
  result. Every block it writes is the corresponding block of ONE function of the five input arrays,

      result (r, q) = max ((A (r, q) + s r * h (r, q)) * scale q + shift q) 0,

  because the block at point `t` starts `5000 t` rows down in each of the three row arrays and in the result, and the
  parameter rows do not move. Row `r` lies in the block of point `r / 5000`, so the twenty blocks cover the array, and the
  array after the last write-back is that function.
-/
import proofs.«166785_j7679401525531_2_alg».proof.Proof.Gen.KernelIdeal.Frame
import proofs.«166785_j7679401525531_2_alg».proof.Proof.NormaliseRowsBlock
import Idealize.ShloMosaic.Lib.Pipeline.Value

noncomputable section

namespace Cert.KernelIdeal.NormaliseRows

open Idealize.ShloMosaic Idealize.ShloMosaic.ValueIdx
open Cert.KernelIdeal Cert.KernelIdeal.Gen

open Idealize.ShloMosaic.TcCoe Idealize.SL.Sem
open Idealize.ShloMosaic.Pipeline (Dat)

/-! ## The whole array as one function of the five input arrays -/

/-- The row of an entry of a `[100000, 64]` array, -/
def rowOf (i : S100000x64.Idx) : Fin 100000 := ⟨(i 0).val, idx2_lt0 i⟩
/-- and its lane. -/
def laneOf (i : S100000x64.Idx) : Fin 64 := ⟨(i 1).val, idx2_lt1 i⟩

/-- THE NORMALISED ROWS: entry `i` of the result is `max ((A i + s (row i) * h i) * scale (lane i) + shift (lane i)) 0`. -/
def normalisedRows (A h : S100000x64.Idx → EReal) (s : S100000x1.Idx → EReal) (scale shift : S1x64.Idx → EReal) :
    S100000x64.Idx → EReal := fun i =>
  max ((A i + s (ix2 (rowOf i) (0 : Fin 1)) * h i) * scale (ix2 (0 : Fin 1) (laneOf i)) + shift (ix2 (0 : Fin 1) (laneOf i))) 0

theorem normalisedRows_apply (A h : S100000x64.Idx → EReal) (s : S100000x1.Idx → EReal) (scale shift : S1x64.Idx → EReal)
    (p : Fin 100000) (q : Fin 64) :
    normalisedRows A h s scale shift (ix2 p q)
      = max ((A (ix2 p q) + s (ix2 p (0 : Fin 1)) * h (ix2 p q)) * scale (ix2 (0 : Fin 1) q) + shift (ix2 (0 : Fin 1) q)) 0 := rfl

/-- ONE BLOCK OF THE RESULT. If the five loaded blocks are block `b` of the row arrays (rows `5000 b … 5000 b + 4999`) and
    the two parameter rows themselves, the block's value at `y` is the normalised rows at the entry `i` in the same lane,
    `5000 b` rows further down. -/
theorem blockValue_eq_normalisedRows
    (A h : S100000x64.Idx → EReal) (s : S100000x1.Idx → EReal) (scale shift : S1x64.Idx → EReal)
    (x0 x1 : Vec Ideal S5000x64 .f32) (x2 : Vec Ideal S5000x1 .f32) (x3 x4 : Vec Ideal S1x64 .f32) (b : Nat)
    (h0 : ∀ (p : Fin 5000) (q : Fin 64) (r : Fin 100000), r.val = b * 5000 + p.val → x0 (ix2 p q) = A (ix2 r q))
    (h1 : ∀ (p : Fin 5000) (q : Fin 64) (r : Fin 100000), r.val = b * 5000 + p.val → x1 (ix2 p q) = h (ix2 r q))
    (h2 : ∀ (p : Fin 5000) (r : Fin 100000), r.val = b * 5000 + p.val → x2 (ix2 p (0 : Fin 1)) = s (ix2 r (0 : Fin 1)))
    (h3 : ∀ q : Fin 64, x3 (ix2 (0 : Fin 1) q) = scale (ix2 (0 : Fin 1) q))
    (h4 : ∀ q : Fin 64, x4 (ix2 (0 : Fin 1) q) = shift (ix2 (0 : Fin 1) q))
    (y : S5000x64.Idx) (i : S100000x64.Idx) (hi0 : (i 0).val = b * 5000 + (y 0).val) (hi1 : (i 1).val = (y 1).val) :
    k1_pay1 (F := Ideal) x0 x2 x1 x3 x4 y = normalisedRows A h s scale shift i := by
  obtain ⟨p, q, rfl⟩ : ∃ (p : Fin 5000) (q : Fin 64), y = ix2 p q := ⟨y 0, y 1, eq_ix2 y⟩
  obtain ⟨r, l, rfl⟩ : ∃ (r : Fin 100000) (l : Fin 64), i = ix2 r l := ⟨i 0, i 1, eq_ix2 i⟩
  have hr : r.val = b * 5000 + p.val := hi0
  obtain rfl : l = q := Fin.ext hi1
  rw [blockValue_apply, normalisedRows_apply, h0 p l r hr, h1 p l r hr, h2 p r hr, h3 l, h4 l]

/-! ## The index maps, decided over the twenty grid points -/

theorem zeroOffsets : (![0, 0] : Fin 2 → Nat) = fun _ => 0 := funext fun a => by fin_cases a <;> rfl

/-- The three row arrays and the result move together, one block of rows per grid point; the two parameter rows stay. -/
theorem blockIndex_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

section Region

variable (V : (c : Dev nD) → (b : Ref sig .tc) → Buf (Elt Ideal) ((c : Thread nD τ).loc b))

/-- The result array as the region's five input arrays determine it. -/
abbrev result (c : Dev nD) : S100000x64.Idx → EReal :=
  normalisedRows (V c main_v63) (V c main_v48) (V c main_v27) (V c main_v32) (V c main_v37)

/-- WHAT POINT `t` WRITES BACK is block `t` of the normalised rows. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 (F := Ideal) V c).after 5 t) = _
  rw [after1_5]
  unfold out1_5
  rw [View.canon_unit_zero zeroOffsets]
  simp only [View.ld_unit_zero (S := S5000x64) zeroOffsets, View.ld_unit_zero (S := S5000x1) zeroOffsets,
    View.ld_unit_zero (S := S1x64) zeroOffsets]
  obtain ⟨⟨a0, a1⟩, ⟨b0, b1⟩, ⟨c0, c1⟩, ⟨d0, d1⟩, ⟨e0, e1⟩, ⟨f0, f1⟩⟩ := blockIndex_facts t
  funext j
  show k1_pay1 (F := Ideal) (iblk1 V c 0 t) (iblk1 V c 2 t) (iblk1 V c 1 t) (iblk1 V c 3 t) (iblk1 V c 4 t) j
      = result V c (((cfg1.win 5).blk t).view.emb j)
  refine blockValue_eq_normalisedRows (V c main_v63) (V c main_v48) (V c main_v27) (V c main_v32) (V c main_v37)
    (iblk1 V c 0 t) (iblk1 V c 1 t) (iblk1 V c 2 t) (iblk1 V c 3 t) (iblk1 V c 4 t) t.val ?_ ?_ ?_ ?_ ?_ j _ ?_ ?_
  · intro p q r hr
    show V c main_v63 (((cfg1.win 0).blk t).view.emb (ix2 p q)) = V c main_v63 (ix2 r q)
    refine congrArg (V c main_v63) (funext fun a => Fin.ext ?_)
    match a with
    | ⟨0, _⟩ => show win1_0.index t (0 : Fin 2) * 5000 + 1 * p.val = r.val; rw [a0, hr]; omega
    | ⟨1, _⟩ => show win1_0.index t (1 : Fin 2) * 64 + 1 * q.val = q.val; rw [a1]; omega
  · intro p q r hr
    show V c main_v48 (((cfg1.win 1).blk t).view.emb (ix2 p q)) = V c main_v48 (ix2 r q)
    refine congrArg (V c main_v48) (funext fun a => Fin.ext ?_)
    match a with
    | ⟨0, _⟩ => show win1_1.index t (0 : Fin 2) * 5000 + 1 * p.val = r.val; rw [b0, hr]; omega
    | ⟨1, _⟩ => show win1_1.index t (1 : Fin 2) * 64 + 1 * q.val = q.val; rw [b1]; omega
  · intro p r hr
    show V c main_v27 (((cfg1.win 2).blk t).view.emb (ix2 p (0 : Fin 1))) = V c main_v27 (ix2 r (0 : Fin 1))
    refine congrArg (V c main_v27) (funext fun a => Fin.ext ?_)
    match a with
    | ⟨0, _⟩ => show win1_2.index t (0 : Fin 2) * 5000 + 1 * p.val = r.val; rw [c0, hr]; omega
    | ⟨1, _⟩ => show win1_2.index t (1 : Fin 2) * 1 + 1 * 0 = 0; rw [c1]
  · intro q
    show V c main_v32 (((cfg1.win 3).blk t).view.emb (ix2 (0 : Fin 1) q)) = V c main_v32 (ix2 (0 : Fin 1) q)
    refine congrArg (V c main_v32) (funext fun a => Fin.ext ?_)
    match a with
    | ⟨0, _⟩ => show win1_3.index t (0 : Fin 2) * 1 + 1 * 0 = 0; rw [d0]
    | ⟨1, _⟩ => show win1_3.index t (1 : Fin 2) * 64 + 1 * q.val = q.val; rw [d1]; omega
  · intro q
    show V c main_v37 (((cfg1.win 4).blk t).view.emb (ix2 (0 : Fin 1) q)) = V c main_v37 (ix2 (0 : Fin 1) q)
    refine congrArg (V c main_v37) (funext fun a => Fin.ext ?_)
    match a with
    | ⟨0, _⟩ => show win1_4.index t (0 : Fin 2) * 1 + 1 * 0 = 0; rw [e0]
    | ⟨1, _⟩ => show win1_4.index t (1 : Fin 2) * 64 + 1 * q.val = q.val; rw [e1]; omega
  · show win1_5.index t (0 : Fin 2) * 5000 + 1 * (j 0).val = t.val * 5000 + (j 0).val; rw [f0]; omega
  · show win1_5.index t (1 : Fin 2) * 64 + 1 * (j 1).val = (j 1).val; rw [f1]; omega

/-- An entry of the array is in point `t`'s block iff each coordinate is in the block's range on its axis. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v64).slice (win1_5.rect t)).set ↔ _
  rw [View.set_slice_whole, Rect.mem_set_unit]
  exact Iff.rfl

/-- Row `r` lies in the block of point `r / 5000`: the twenty blocks of 5000 rows tile the 100000 rows. -/
theorem covered (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  let t : Fin cfg1.N := ⟨(i 0).val / 5000, by rw [hN]; omega⟩
  obtain ⟨-, -, -, -, -, ⟨f0, f1⟩⟩ := blockIndex_facts t
  have f0' : win1_5.index t (0 : Fin 2) = (i 0).val / 5000 := f0
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [f0']; omega
  | ⟨1, _⟩ =>
    show win1_5.index t (1 : Fin 2) * 64 ≤ (i 1).val ∧ (i 1).val < win1_5.index t (1 : Fin 2) * 64 + 64
    rw [f1]; omega

/-- THE ARRAY AFTER THE REGION: the normalised rows of the region's five input arrays. -/
theorem arrAt_eq (c : Dev nD) : (dat1 (F := Ideal) V c).arrAt 5 cfg1.N = result V c :=
  (dat1 (F := Ideal) V c).arrAt_eq_of_cover 5 (result V c) (fun t _ => flushed_eq V c t) covered

/-- The region's five input arrays as the region finds them, each as a function of its index: the aggregated rows, -/
abbrev aggregated (c : Dev nD) : S100000x64.Idx → EReal := V c main_v63
/-- the projected rows, -/
abbrev projected (c : Dev nD) : S100000x64.Idx → EReal := V c main_v48
/-- the column with one factor per row, -/
abbrev rowFactor (c : Dev nD) : S100000x1.Idx → EReal := V c main_v27
/-- the scale row -/
abbrev scaleRow (c : Dev nD) : S1x64.Idx → EReal := V c main_v32
/-- and the shift row. -/
abbrev shiftRow (c : Dev nD) : S1x64.Idx → EReal := V c main_v37

/-- ENTRY BY ENTRY: row `p`, lane `q` of the array after the region. -/
theorem arrAt_apply (c : Dev nD) (p : Fin 100000) (q : Fin 64) :
    (dat1 (F := Ideal) V c).arrAt 5 cfg1.N (ix2 p q)
      = max ((aggregated V c (ix2 p q) + rowFactor V c (ix2 p (0 : Fin 1)) * projected V c (ix2 p q))
            * scaleRow V c (ix2 (0 : Fin 1) q) + shiftRow V c (ix2 (0 : Fin 1) q)) 0 := by
  rw [arrAt_eq V c]
  rfl

end Region

end Cert.KernelIdeal.NormaliseRows

end
-- ==== Proof.EntryRows.lean ====
/-
  The small operands of the two normalisation steps, read entry by entry in terms of the arrays the program is
  launched with.

  Before its first region the program folds each layer's inference-mode batch normalisation into one scale row,
  gain * r, and one shift row, (bias - mean) * gain * r + offset, where r is the reciprocal standard deviation of the
  layer (the reference's own stage of the variance), and computes every node's self-loop weight (the reference's own
  stage of the edge list) as a column. None of these buffers is written again, so what the second and the fourth
  region find in them is what those first operations left. A flat vector kept as a single row holds the vector's
  entry j in lane j; a flat vector kept as a column holds entry p in row p. The head's two matrices are launch
  arrays nobody writes; its two bias vectors enter the last region as single rows.
-/
import proofs.«166785_j7679401525531_2_alg».proof.Proof.Boundaries
import proofs.«166785_j7679401525531_2_alg».proof.Proof.GraphStage
import proofs.«166785_j7679401525531_2_alg».proof.Proof.FoldStage
import proofs.«166785_j7679401525531_2_alg».proof.Proof.EdgeStage
import proofs.«166785_j7679401525531_2_alg».proof.Proof.LibRowBias
import proofs.«166785_j7679401525531_2_alg».proof.Proof.LibRowLayout
import proofs.«166785_j7679401525531_2_alg».proof.Proof.NormaliseRows
import proofs.«166785_j7679401525531_2_alg».proof.Proof.HeadArray

noncomputable section

namespace Cert.KernelIdeal.EntryRows

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The launch arrays, as functions of an index -/

/-- The edge list: a row of sources and a row of destinations. -/
abbrev edgeList (c : Dev nD) : S2x1600000.Idx → BitVec 32 := m ((c : Thread nD τ).loc main_arg1)
/-- Layer 1: the projection's bias, the normalisation's gain, offset, running mean and running variance. -/
abbrev bias1 (c : Dev nD) : S64.Idx → EReal := m ((c : Thread nD τ).loc main_arg3)
abbrev gain1 (c : Dev nD) : S64.Idx → EReal := m ((c : Thread nD τ).loc main_arg4)
abbrev offset1 (c : Dev nD) : S64.Idx → EReal := m ((c : Thread nD τ).loc main_arg5)
abbrev mean1 (c : Dev nD) : S64.Idx → EReal := m ((c : Thread nD τ).loc main_arg6)
abbrev variance1 (c : Dev nD) : S64.Idx → EReal := m ((c : Thread nD τ).loc main_arg7)
/-- Layer 2: the same five vectors. -/
abbrev bias2 (c : Dev nD) : S64.Idx → EReal := m ((c : Thread nD τ).loc main_arg9)
abbrev gain2 (c : Dev nD) : S64.Idx → EReal := m ((c : Thread nD τ).loc main_arg10)
abbrev offset2 (c : Dev nD) : S64.Idx → EReal := m ((c : Thread nD τ).loc main_arg11)
abbrev mean2 (c : Dev nD) : S64.Idx → EReal := m ((c : Thread nD τ).loc main_arg12)
abbrev variance2 (c : Dev nD) : S64.Idx → EReal := m ((c : Thread nD τ).loc main_arg13)
/-- The head: its two matrices and its two bias vectors. -/
abbrev headMatrix1 (c : Dev nD) : S64x32.Idx → EReal := m ((c : Thread nD τ).loc main_arg14)
abbrev headBiasVec1 (c : Dev nD) : S32.Idx → EReal := m ((c : Thread nD τ).loc main_arg15)
abbrev headMatrix2 (c : Dev nD) : S32x1.Idx → EReal := m ((c : Thread nD τ).loc main_arg16)
abbrev headBiasVec2 (c : Dev nD) : S1.Idx → EReal := m ((c : Thread nD τ).loc main_arg17)

/-! ## The reference's stages of the edge list and of the variances -/

/-- Every node's self-loop weight, as the reference's first layer computes it from the edge list. -/
abbrev selfLoop1 (c : Dev nD) : S100000.Idx → EReal :=
  Cert.ReferenceIdeal.Read.val_main_v40 (F := Ideal) (m ((c : Thread nD τ).loc main_arg1))
/-- Every node's self-loop weight, as the reference's second layer computes it from the edge list. -/
abbrev selfLoop2 (c : Dev nD) : S100000.Idx → EReal :=
  Cert.ReferenceIdeal.Read.val_main_v100 (F := Ideal) (m ((c : Thread nD τ).loc main_arg1))
/-- Layer 1's reciprocal standard deviation, the reference's stage of the running variance. -/
abbrev invStd1 (c : Dev nD) : S64.Idx → EReal :=
  Cert.ReferenceIdeal.Read.val_main_v53 (F := Ideal) (m ((c : Thread nD τ).loc main_arg7))
/-- Layer 2's reciprocal standard deviation, the reference's stage of the running variance. -/
abbrev invStd2 (c : Dev nD) : S64.Idx → EReal :=
  Cert.ReferenceIdeal.Read.val_main_v113 (F := Ideal) (m ((c : Thread nD τ).loc main_arg13))

/-! ## What the first normalisation region finds -/

/-- Row p of the self-loop column is node p's self-loop weight. -/
theorem rowFactor1_apply (c : Dev nD) (p : Fin 100000) :
    NormaliseRows.rowFactor (V3 m ρ) c (ix2 p (0 : Fin 1)) = selfLoop1 m c (ix1 p) := by
  show (W3 m ρ c (Proc.devRef .tc main_v27) : S100000x1.Idx → EReal) (ix2 p (0 : Fin 1)) = _
  rw [Boundaries.v27_at3, GraphStage.selfWeight_eq]
  exact Cert.RowLayout.castCol_apply _ _ p

/-- Lane q of layer 1's scale row: gain times reciprocal standard deviation. -/
theorem scaleRow1_apply (c : Dev nD) (q : Fin 64) :
    NormaliseRows.scaleRow (V3 m ρ) c (ix2 (0 : Fin 1) q) = gain1 m c (ix1 q) * invStd1 m c (ix1 q) := by
  show (W3 m ρ c (Proc.devRef .tc main_v32) : S1x64.Idx → EReal) (ix2 (0 : Fin 1) q) = _
  rw [Boundaries.v32_at3, FoldStage.scale1_eq]
  exact Cert.RowBias.castRow_apply _ _ q

/-- Lane q of layer 1's shift row: (bias - mean) * gain * reciprocal standard deviation + offset. -/
theorem shiftRow1_apply (c : Dev nD) (q : Fin 64) :
    NormaliseRows.shiftRow (V3 m ρ) c (ix2 (0 : Fin 1) q)
      = (bias1 m c (ix1 q) - mean1 m c (ix1 q)) * gain1 m c (ix1 q) * invStd1 m c (ix1 q) + offset1 m c (ix1 q) := by
  show (W3 m ρ c (Proc.devRef .tc main_v37) : S1x64.Idx → EReal) (ix2 (0 : Fin 1) q) = _
  rw [Boundaries.v37_at3, FoldStage.shift1_eq]
  exact Cert.RowBias.castRow_apply _ _ q

/-! ## What the last region finds -/

/-- Row p of the self-loop column is node p's self-loop weight, as the second layer computes it. -/
theorem rowWeight2_apply (c : Dev nD) (p : Fin 100000) :
    HeadArray.rowWeight (V7 m ρ) c (ix2 p (0 : Fin 1)) = selfLoop2 m c (ix1 p) := by
  show (W7 m ρ c (Proc.devRef .tc main_v27) : S100000x1.Idx → EReal) (ix2 p (0 : Fin 1)) = _
  rw [Boundaries.v27_at7, GraphStage.selfWeight_eq']
  exact Cert.RowLayout.castCol_apply _ _ p

/-- Lane q of layer 2's scale row: gain times reciprocal standard deviation. -/
theorem scaleRow2_apply (c : Dev nD) (q : Fin 64) :
    HeadArray.scaleRow (V7 m ρ) c (ix2 (0 : Fin 1) q) = gain2 m c (ix1 q) * invStd2 m c (ix1 q) := by
  show (W7 m ρ c (Proc.devRef .tc main_v42) : S1x64.Idx → EReal) (ix2 (0 : Fin 1) q) = _
  rw [Boundaries.v42_at7, FoldStage.scale2_eq]
  exact Cert.RowBias.castRow_apply _ _ q

/-- Lane q of layer 2's shift row: (bias - mean) * gain * reciprocal standard deviation + offset. -/
theorem shiftRow2_apply (c : Dev nD) (q : Fin 64) :
    HeadArray.shiftRow (V7 m ρ) c (ix2 (0 : Fin 1) q)
      = (bias2 m c (ix1 q) - mean2 m c (ix1 q)) * gain2 m c (ix1 q) * invStd2 m c (ix1 q) + offset2 m c (ix1 q) := by
  show (W7 m ρ c (Proc.devRef .tc main_v47) : S1x64.Idx → EReal) (ix2 (0 : Fin 1) q) = _
  rw [Boundaries.v47_at7, FoldStage.shift2_eq]
  exact Cert.RowBias.castRow_apply _ _ q

/-- The head's first matrix is the launch array. -/
theorem headW1_eq (c : Dev nD) : HeadArray.headW1 (V7 m ρ) c = headMatrix1 m c :=
  Boundaries.arg14_at7 m ρ c

/-- The head's second matrix is the launch array. -/
theorem headW2_eq (c : Dev nD) : HeadArray.headW2 (V7 m ρ) c = headMatrix2 m c :=
  Boundaries.arg16_at7 m ρ c

/-- Lane k2 of the head's first bias row is entry k2 of the bias vector. -/
theorem headB1_apply (c : Dev nD) (k2 : Fin 32) :
    HeadArray.headB1 (V7 m ρ) c (ix2 (0 : Fin 1) k2) = headBiasVec1 m c (ix1 k2) := by
  show (W7 m ρ c (Proc.devRef .tc main_v65) : S1x32.Idx → EReal) (ix2 (0 : Fin 1) k2) = _
  rw [Boundaries.v65_at7, EdgeStage.headBias1_eq, Boundaries.arg15_at4]
  exact Cert.RowBias.castRow_apply _ _ k2

/-- The head's second bias, a single entry, is the bias vector's one entry. -/
theorem headB2_apply (c : Dev nD) :
    HeadArray.headB2 (V7 m ρ) c (ix2 (0 : Fin 1) (0 : Fin 1)) = headBiasVec2 m c (ix1 (0 : Fin 1)) := by
  show (W7 m ρ c (Proc.devRef .tc main_v66) : S1x1.Idx → EReal) (ix2 (0 : Fin 1) (0 : Fin 1)) = _
  rw [Boundaries.v66_at7, EdgeStage.headBias2_eq, Boundaries.arg17_at4]
  exact Cert.RowBias.castRow_apply _ _ (0 : Fin 1)

end Cert.KernelIdeal.EntryRows

end
-- ==== Proof.AffineLaw.lean ====
/-
  The folded affine normalisation on the extended reals.

  An inference-mode batch normalisation of a value T with bias b, running mean m, weight g, offset β and variance v is
  ((T + b) - m) * rsqrt (v + ε) * g + β.  Folding it into one scale and one shift gives
  T * (g * rsqrt (v + ε)) + ((b - m) * g * rsqrt (v + ε) + β).  The two agree by distributivity, which on the
  extended reals holds here because every factor except T is a real number: b, m, g and β are finite, and for a
  variance v ≥ 0 the shifted variance v + ε is a positive real, so its reciprocal square root is a positive real.
  T itself may be any extended real: at T = ±∞ both sides are the same infinity (or zero when g = 0).
-/
import Idealize.ShloMosaic.PureOps.Ideal

noncomputable section

namespace Cert.AffineLaw

open Idealize.ShloMosaic

/-- The shift ε, the single-precision number nearest 1e-5, is the real 10995116 / 2^40. -/
theorem eps_real : Ideal.ofBits .f32 0x3727C5AC#32 = ((10995116 * (2 ^ 40)⁻¹ : ℝ) : EReal) := by
  simp [Ideal.ofBits, Ideal.ieee, -EReal.coe_mul]

theorem eps_pos : (0 : ℝ) < 10995116 * (2 ^ 40)⁻¹ := by positivity

/-- For a real variance v ≥ 0 the reciprocal square root of v + ε is a positive real. -/
theorem rsqrt_shift_real (v : ℝ) (hv : 0 ≤ v) :
    ∃ r : ℝ, 0 < r ∧ Ideal.rsqrt ((v : EReal) + Ideal.ofBits .f32 0x3727C5AC#32) = (r : EReal) := by
  have hpos : 0 < v + 10995116 * (2 ^ 40)⁻¹ := add_pos_of_nonneg_of_pos hv eps_pos
  refine ⟨(Real.sqrt (v + 10995116 * (2 ^ 40)⁻¹))⁻¹, inv_pos.mpr (Real.sqrt_pos.mpr hpos), ?_⟩
  rw [eps_real, ← EReal.coe_add, Ideal.rsqrt_coe, if_neg (not_lt.mpr hpos.le), if_neg hpos.ne']

/-- The fold at a real T: distributivity in the reals. -/
theorem fold_real (x b m g r be : ℝ) :
    (x : EReal) * ((g : EReal) * (r : EReal)) + (((b : EReal) - (m : EReal)) * (g : EReal) * (r : EReal) + (be : EReal))
      = ((((x : EReal) + (b : EReal)) - (m : EReal)) * (r : EReal)) * (g : EReal) + (be : EReal) := by
  norm_cast
  ring

/-- The fold at T = +∞: both sides are +∞, -∞ or 0 with the sign of g. -/
theorem fold_top (b m g r be : ℝ) (hr : 0 < r) :
    (⊤ : EReal) * ((g : EReal) * (r : EReal)) + (((b : EReal) - (m : EReal)) * (g : EReal) * (r : EReal) + (be : EReal))
      = ((((⊤ : EReal) + (b : EReal)) - (m : EReal)) * (r : EReal)) * (g : EReal) + (be : EReal) := by
  rw [EReal.top_add_coe, EReal.top_sub_coe, EReal.top_mul_coe_of_pos hr]
  rcases lt_trichotomy g 0 with hg | hg | hg
  · have : g * r < 0 := mul_neg_of_neg_of_pos hg hr
    rw [← EReal.coe_mul g r, EReal.top_mul_coe_of_neg this, EReal.top_mul_coe_of_neg hg]
    norm_cast
  · subst hg
    simp
  · have : 0 < g * r := mul_pos hg hr
    rw [← EReal.coe_mul g r, EReal.top_mul_coe_of_pos this, EReal.top_mul_coe_of_pos hg]
    norm_cast

/-- The fold at T = -∞: both sides are -∞, +∞ or 0 with the sign of g. -/
theorem fold_bot (b m g r be : ℝ) (hr : 0 < r) :
    (⊥ : EReal) * ((g : EReal) * (r : EReal)) + (((b : EReal) - (m : EReal)) * (g : EReal) * (r : EReal) + (be : EReal))
      = ((((⊥ : EReal) + (b : EReal)) - (m : EReal)) * (r : EReal)) * (g : EReal) + (be : EReal) := by
  rw [EReal.bot_add, EReal.bot_sub, EReal.bot_mul_coe_of_pos hr]
  rcases lt_trichotomy g 0 with hg | hg | hg
  · have : g * r < 0 := mul_neg_of_neg_of_pos hg hr
    rw [← EReal.coe_mul g r, EReal.bot_mul_coe_of_neg this, EReal.bot_mul_coe_of_neg hg]
    norm_cast
  · subst hg
    simp
  · have : 0 < g * r := mul_pos hg hr
    rw [← EReal.coe_mul g r, EReal.bot_mul_coe_of_pos this, EReal.bot_mul_coe_of_pos hg]
    norm_cast

/-- The folded form equals the plain form for any extended real T, when the bias, mean, weight and offset are real
    and the reciprocal standard deviation is a positive real. -/
theorem fold (T g b m be R : EReal) (hg : ∃ x : ℝ, g = x) (hb : ∃ x : ℝ, b = x) (hm : ∃ x : ℝ, m = x)
    (hbe : ∃ x : ℝ, be = x) (hR : ∃ r : ℝ, 0 < r ∧ R = r) :
    T * (g * R) + ((b - m) * g * R + be) = (((T + b) - m) * R) * g + be := by
  obtain ⟨g, rfl⟩ := hg
  obtain ⟨b, rfl⟩ := hb
  obtain ⟨m, rfl⟩ := hm
  obtain ⟨be, rfl⟩ := hbe
  obtain ⟨r, hr, rfl⟩ := hR
  induction T using EReal.rec with
  | bot => exact fold_bot b m g r be hr
  | coe x => exact fold_real x b m g r be
  | top => exact fold_top b m g r be hr

end Cert.AffineLaw

end
-- ==== Proof.Domain.lean ====
/-
  The domain of the claim, read off its stated precondition.

  The precondition is one word: the conjunction ("and") of nineteen tests, each a test of every entry of one input array
  joined by "and" from the word 1. Seventeen tests say `|x| < +∞` of every entry of a float input; the last two say
  `x ≥ 0` of every entry of the two variance rows. Over the extended reals `|x|` is `max x (-x)`, so `|x| < +∞` excludes
  both infinities and leaves `x` a real number. When the word is 1 every test is 1 and every entry passes its test; read
  here for the ten rows of sixty-four entries that the normalisation layers use: the eight bias, weight, offset and mean
  rows are rows of reals, and the two variance rows are rows of nonnegative reals.
-/
import proofs.«166785_j7679401525531_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Domain

open Idealize.ShloMosaic Idealize.ShloMosaic.ValueIdx
open Cert.Pre_finite_inputs

/-- The shape with no axes has one index. -/
instance subsingleton_scalarIdx : Subsingleton S_.Idx := ⟨fun a b => funext fun d => d.elim0⟩

/-- The word of a decision is 1 exactly when the decision is "yes". -/
theorem ofBool_eq_one_iff {b : Bool} : BitVec.ofBool b = 1#1 ↔ b = true := by cases b <;> decide

/-- The word `0x7F800000` is `+∞`. -/
theorem ofBits_inf : Ideal.ofBits .f32 0x7F800000#32 = ⊤ := by simp [Ideal.ofBits, Ideal.ieee]

/-- A conjunction of two words of the one-index shape that is 1 has both words 1. -/
theorem both_of_andi {X Y : IVec S_ 1} (h : andi X Y ix0 = 1#1) : X ix0 = 1#1 ∧ Y ix0 = 1#1 :=
  IntOp.andi_eq_one.1 h

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

section Tests

variable {s : Shape} {axes : List (Fin s.rank)}

/-- THE FINITENESS TEST: if "every entry has `|x| < +∞`" came out 1, every entry is a real number. -/
theorem real_of_finiteTest (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) := by
  have e := Host.reduce_andi_all _ _ hr hu ix0 h i
  have e' : BitVec.ofBool (decide (max (x i : EReal) (-(x i : EReal)) < Ideal.ofBits .f32 0x7F800000#32)) = 1#1 := e
  rw [ofBits_inf, ofBool_eq_one_iff, decide_eq_true_eq] at e'
  exact real_of_abs_lt_top _ e'

/-- THE SIGN TEST: if "every entry has `x ≥ 0`" came out 1, every entry is at least 0. -/
theorem nonneg_of_signTest (x : FVec Ideal s .f32) (hb : S_.BroadcastsInDim s (![] : Fin 0 → Fin s.rank))
    (hr : s.ReducesTo axes S_) (hu : 0 < S_.numel)
    (h : Host.reduce IntOp.andi (cmpf .oge x (broadcastInDim s ![] hb (constant (F := Ideal) S_ .f32 0x00000000#32)))
          (constantI S_ 1 1#1) hr hu ix0 = 1#1) (i : s.Idx) : (0 : EReal) ≤ x i := by
  have e := Host.reduce_andi_all _ _ hr hu ix0 h i
  have e' : BitVec.ofBool (decide (Ideal.ofBits .f32 0x00000000#32 ≤ (x i : EReal))) = 1#1 := e
  rw [Ideal.ofBits_zero_f32, ofBool_eq_one_iff, decide_eq_true_eq] at e'
  exact e'

end Tests

/-- A row that passes both tests is a row of nonnegative reals. -/
theorem nonnegReal_of_tests (x : EReal) (hfin : ∃ r : ℝ, x = (r : EReal)) (hpos : (0 : EReal) ≤ x) :
    ∃ r : ℝ, 0 ≤ r ∧ x = (r : EReal) := by
  obtain ⟨r, rfl⟩ := hfin
  exact ⟨r, EReal.coe_nonneg.1 hpos, rfl⟩

variable [Facts]

/-- THE PRECONDITION, DECODED for the ten rows of the two normalisation layers: the bias, weight, offset and mean rows
    (inputs 3, 4, 5, 6 and 9, 10, 11, 12) are rows of reals, the two variance rows (inputs 7 and 13) rows of
    nonnegative reals. -/
theorem rows_of_pre
    (a0 : FVec Ideal S100000x128 .f32) (a1 : IVec S2x1600000 32) (a2 : FVec Ideal S128x64 .f32)
    (a3 a4 a5 a6 a7 : FVec Ideal S64 .f32) (a8 : FVec Ideal S64x64 .f32)
    (a9 a10 a11 a12 a13 : FVec Ideal S64 .f32) (a14 : FVec Ideal S64x32 .f32) (a15 : FVec Ideal S32 .f32)
    (a16 : FVec Ideal S32x1 .f32) (a17 : FVec Ideal S1 .f32)
    (h : fn (F := Ideal) a0 a1 a2 a3 a4 a5 a6 a7 a8 a9 a10 a11 a12 a13 a14 a15 a16 a17 = (fun _ => 1#1)) :
    (∀ q : Fin 64, ∃ x : ℝ, a3 (ix1 q) = (x : EReal))
    ∧ (∀ q : Fin 64, ∃ x : ℝ, a4 (ix1 q) = (x : EReal))
    ∧ (∀ q : Fin 64, ∃ x : ℝ, a5 (ix1 q) = (x : EReal))
    ∧ (∀ q : Fin 64, ∃ x : ℝ, a6 (ix1 q) = (x : EReal))
    ∧ (∀ q : Fin 64, ∃ x : ℝ, 0 ≤ x ∧ a7 (ix1 q) = (x : EReal))
    ∧ (∀ q : Fin 64, ∃ x : ℝ, a9 (ix1 q) = (x : EReal))
    ∧ (∀ q : Fin 64, ∃ x : ℝ, a10 (ix1 q) = (x : EReal))
    ∧ (∀ q : Fin 64, ∃ x : ℝ, a11 (ix1 q) = (x : EReal))
    ∧ (∀ q : Fin 64, ∃ x : ℝ, a12 (ix1 q) = (x : EReal))
    ∧ (∀ q : Fin 64, ∃ x : ℝ, 0 ≤ x ∧ a13 (ix1 q) = (x : EReal)) := by
  have h0 := congrFun h ix0
  dsimp only [fn, fn_part1, fn_part2, fn_part3, fn_part4, fn_part5] at h0
  obtain ⟨h0, s13⟩ := both_of_andi h0
  obtain ⟨h0, s7⟩ := both_of_andi h0
  obtain ⟨h0, -⟩ := both_of_andi h0
  obtain ⟨h0, -⟩ := both_of_andi h0
  obtain ⟨h0, -⟩ := both_of_andi h0
  obtain ⟨h0, -⟩ := both_of_andi h0
  obtain ⟨h0, f13⟩ := both_of_andi h0
  obtain ⟨h0, f12⟩ := both_of_andi h0
  obtain ⟨h0, f11⟩ := both_of_andi h0
  obtain ⟨h0, f10⟩ := both_of_andi h0
  obtain ⟨h0, f9⟩ := both_of_andi h0
  obtain ⟨h0, -⟩ := both_of_andi h0
  obtain ⟨h0, f7⟩ := both_of_andi h0
  obtain ⟨h0, f6⟩ := both_of_andi h0
  obtain ⟨h0, f5⟩ := both_of_andi h0
  obtain ⟨h0, f4⟩ := both_of_andi h0
  obtain ⟨-, f3⟩ := both_of_andi h0
  refine ⟨fun q => real_of_finiteTest a3 _ _ _ f3 _, fun q => real_of_finiteTest a4 _ _ _ f4 _,
    fun q => real_of_finiteTest a5 _ _ _ f5 _, fun q => real_of_finiteTest a6 _ _ _ f6 _,
    fun q => nonnegReal_of_tests _ (real_of_finiteTest a7 _ _ _ f7 _) (nonneg_of_signTest a7 _ _ _ s7 _),
    fun q => real_of_finiteTest a9 _ _ _ f9 _, fun q => real_of_finiteTest a10 _ _ _ f10 _,
    fun q => real_of_finiteTest a11 _ _ _ f11 _, fun q => real_of_finiteTest a12 _ _ _ f12 _,
    fun q => nonnegReal_of_tests _ (real_of_finiteTest a13 _ _ _ f13 _) (nonneg_of_signTest a13 _ _ _ s13 _)⟩

end Cert.Domain

end
-- ==== Proof.ProjectRows1.lean ====
/-
  The first dense projection, from row blocks to the whole array.

  The kernel multiplies a 100000 x 128 array X by a 128 x 64 weight matrix W in 20 steps. Step t takes rows
  5000 t, ..., 5000 t + 4999 of X and the whole of W, forms their 5000 x 64 product on the matrix unit (accumulated into
  the zero matrix; both operands are first rounded to a narrower format, which is the identity on extended reals), and
  writes it to rows 5000 t, ..., 5000 t + 4999 of the result. Read at the exact extended reals, entry (p, q) of a block
  product is the sum over k of (block row p, k) * W (k, q), so each row block of the result is the corresponding block
  of ONE function of the whole arrays, (p, q) |-> sum over k of X (p, k) * W (k, q); and the 20 blocks cover all
  100000 rows, row r lying in block r / 5000. Hence the result array is that function.
-/
import proofs.«166785_j7679401525531_2_alg».proof.Proof.Gen.KernelIdeal.Frame
import proofs.«166785_j7679401525531_2_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.ProjectRows1

open Cert.KernelIdeal Cert.KernelIdeal.Gen

/-! ## The block product at an entry -/

/-- The product's left operand is read at (row of the result, contraction coordinate) ... -/
theorem left_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem left_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- ... and the right operand at (contraction coordinate, column of the result). -/
theorem right_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem right_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (p, q) of what the body stores: row p of the 5000 x 128 block times column q of the 128 x 64 weights.
    The two roundings to the narrower format are the identity on extended reals. -/
theorem block_product_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.PlainMatmul.matmul_zero_apply dot_S5000x128_S128x64_S5000x64_1_0_0_1_n_n rfl rfl
    left_row left_col right_row right_col none _ _ p q

/-! ## From the row blocks to the whole array -/

variable (V : (c : Dev nD) → (b : Ref sig .tc) → Buf (Elt Ideal) ((c : Thread nD τ).loc b))

theorem offsets_zero : (![0, 0] : Fin 2 → Nat) = fun _ => 0 := funext fun a => by fin_cases a <;> rfl

/-- The product of the 100000 x 128 array by the 128 x 64 weights, entry by entry. -/
def rowsProduct (X : S100000x128.Idx → EReal) (W : S128x64.Idx → EReal) : S100000x64.Idx → EReal :=
  fun i => ∑ k : Fin 128, X (ix2 (⟨(i 0).val, idx2_lt0 i⟩ : Fin 100000) k) * W (ix2 k (⟨(i 1).val, idx2_lt1 i⟩ : Fin 64))

/-- Entry j of what the body stores, for an index of the block given as a whole. -/
theorem block_product_entry (x0 : Vec Ideal S5000x128 .f32) (x1 : Vec Ideal S128x64 .f32) (j : S5000x64.Idx) :
    k0_pay1 (F := Ideal) x0 x1 j
      = ∑ k : Fin 128, x0 (ix2 (⟨(j 0).val, idx2_lt0 j⟩ : Fin 5000) k) * x1 (ix2 k (⟨(j 1).val, idx2_lt1 j⟩ : Fin 64)) := by
  obtain ⟨p, q, rfl⟩ : ∃ (p : Fin 5000) (q : Fin 64), j = ix2 p q := ⟨j 0, j 1, eq_ix2 j⟩
  exact block_product_apply x0 x1 p q

/-- The grid's point t takes row block t of the left array and of the result, and the whole weights. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row y of the left block at point t is row 5000 t + y of the left array. -/
theorem left_block_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weights' block at every point is the weights. -/
theorem weights_block_apply (c : Dev nD) (t : Fin cfg0.N) (y : S128x64.Idx) :
    (iblk0 V c 1 t : Vec Ideal S128x64 .f32) y = (V c main_arg2 : S128x64.Idx → EReal) y := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- What point t writes back is row block t of the product of the two arrays as the region finds them. -/
theorem flushed_eq (c : Dev nD) (t : Fin cfg0.N) :
    (dat0 (F := Ideal) V c).flushed 2 t
      = ((cfg0.win 2).blk t).view.read (Elt Ideal) (rowsProduct (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x64) offsets_zero]
  obtain ⟨-, -, -, -, e0, e1⟩ := block_indices t
  funext j
  show k0_pay1 (F := Ideal) (iblk0 V c 0 t) (iblk0 V c 1 t) j
    = rowsProduct (V c main_arg0) (V c main_arg2) (((cfg0.win 2).blk t).view.emb j)
  refine (block_product_entry (iblk0 V c 0 t) (iblk0 V c 1 t) j).trans ?_
  unfold rowsProduct
  refine Finset.sum_congr rfl fun k _ => ?_
  have hj0 : (j 0).val < 5000 := (j 0).isLt
  have hj1 : (j 1).val < 64 := (j 1).isLt
  have r0 : ((((cfg0.win 2).blk t).view.emb j) 0).val = t.val * 5000 + (j 0).val := by
    show win0_2.index t 0 * 5000 + 1 * (j 0).val = _; rw [e0]; omega
  have r1 : ((((cfg0.win 2).blk t).view.emb j) 1).val = (j 1).val := by
    show win0_2.index t 1 * 64 + 1 * (j 1).val = _; rw [e1]; omega
  rw [left_block_apply V c t (ix2 (⟨(j 0).val, hj0⟩ : Fin 5000) k)
      (ix2 (⟨((((cfg0.win 2).blk t).view.emb j) 0).val, idx2_lt0 _⟩ : Fin 100000) k) r0 rfl,
    weights_block_apply V c t]
  congr 2
  exact congrArg (ix2 k) (Fin.ext r1.symm)

/-- An index of the result array is in point t's block iff its row is among the block's 5000 rows. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v48).slice (win0_2.rect t)).set ↔ _
  rw [View.set_slice_whole, Rect.mem_set_unit]
  exact Iff.rfl

/-- Row r of the result is written by point r / 5000. -/
theorem covered (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 20 := N_0
  let t : Fin cfg0.N := ⟨(i 0).val / 5000, by rw [hN]; omega⟩
  obtain ⟨-, -, -, -, e0, e1⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- THE FIRST PROJECTION: after the region the result array holds the product of the two arrays the region found. -/
theorem array_eq (c : Dev nD) :
    (dat0 (F := Ideal) V c).arrAt 2 cfg0.N = rowsProduct (V c main_arg0) (V c main_arg2) :=
  (dat0 (F := Ideal) V c).arrAt_eq_of_cover 2 (rowsProduct (V c main_arg0) (V c main_arg2))
    (fun t _ => flushed_eq V c t) covered

/-- The product at an entry given by its coordinates. -/
theorem rowsProduct_apply (X : S100000x128.Idx → EReal) (W : S128x64.Idx → EReal) (p : Fin 100000) (q : Fin 64) :
    rowsProduct X W (ix2 p q) = ∑ k : Fin 128, X (ix2 p k) * W (ix2 k q) := rfl

/-- Entry (p, q) of the result array is row p of the left array times column q of the weights
    (X and W name the two arrays the region found, read as functions of an index). -/
theorem projection_apply (c : Dev nD) (X : S100000x128.Idx → EReal) (W : S128x64.Idx → EReal)
    (hX : V c main_arg0 = X) (hW : V c main_arg2 = W) (p : Fin 100000) (q : Fin 64) :
    (dat0 (F := Ideal) V c).arrAt 2 cfg0.N (ix2 p q) = ∑ k : Fin 128, X (ix2 p k) * W (ix2 k q) := by
  subst hX hW
  rw [array_eq V c]
  rfl

end Cert.KernelIdeal.ProjectRows1

end
-- ==== Proof.ProjectRows2.lean ====
/-
  The second dense projection, from row blocks to the whole array.

  The kernel multiplies a 100000 x 64 array X by a 64 x 64 weight matrix W in 20 steps. Step t takes rows
  5000 t, ..., 5000 t + 4999 of X and the whole of W, forms their 5000 x 64 product on the matrix unit (accumulated into
  the zero matrix; the block is first recast to its own shape and both operands are rounded to a narrower format, all of
  which is the identity on extended reals), and writes it to rows 5000 t, ..., 5000 t + 4999 of the result. Read at the
  exact extended reals, entry (p, q) of a block product is the sum over k of (block row p, k) * W (k, q), so each row
  block of the result is the corresponding block of ONE function of the whole arrays,
  (p, q) |-> sum over k of X (p, k) * W (k, q); and the 20 blocks cover all 100000 rows, row r lying in block r / 5000.
  Hence the result array is that function.
-/
import proofs.«166785_j7679401525531_2_alg».proof.Proof.Gen.KernelIdeal.Frame
import proofs.«166785_j7679401525531_2_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.ProjectRows2

open Cert.KernelIdeal Cert.KernelIdeal.Gen

/-! ## The block product at an entry -/

/-- The product's left operand is read at (row of the result, contraction coordinate) ... -/
theorem left_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem left_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- ... and the right operand at (contraction coordinate, column of the result). -/
theorem right_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem right_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of what the body stores: row p of the 5000 x 64 block times column q of the 64 x 64 weights.
    The recast to the same shape and the two roundings to the narrower format are the identity on extended reals. -/
theorem block_product_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  refine (Cert.PlainMatmul.matmul_zero_apply dot_S5000x64_S64x64_S5000x64_1_0_0_1_n_n rfl rfl
    left_row left_col right_row right_col none _ _ p q).trans ?_
  refine Finset.sum_congr rfl fun k _ => ?_
  exact congrArg (fun z => z * x1 (ix2 k q)) (congrFun (shapeCast_self x0 shapeCasts_S5000x64_S5000x64) (ix2 p k))

/-! ## From the row blocks to the whole array -/

variable (V : (c : Dev nD) → (b : Ref sig .tc) → Buf (Elt Ideal) ((c : Thread nD τ).loc b))

theorem offsets_zero : (![0, 0] : Fin 2 → Nat) = fun _ => 0 := funext fun a => by fin_cases a <;> rfl

/-- The product of the 100000 x 64 array by the 64 x 64 weights, entry by entry. -/
def rowsProduct (X : S100000x64.Idx → EReal) (W : S64x64.Idx → EReal) : S100000x64.Idx → EReal :=
  fun i => ∑ k : Fin 64, X (ix2 (⟨(i 0).val, idx2_lt0 i⟩ : Fin 100000) k) * W (ix2 k (⟨(i 1).val, idx2_lt1 i⟩ : Fin 64))

/-- Entry j of what the body stores, for an index of the block given as a whole. -/
theorem block_product_entry (x0 : Vec Ideal S5000x64 .f32) (x1 : Vec Ideal S64x64 .f32) (j : S5000x64.Idx) :
    k2_pay1 (F := Ideal) x0 x1 j
      = ∑ k : Fin 64, x0 (ix2 (⟨(j 0).val, idx2_lt0 j⟩ : Fin 5000) k) * x1 (ix2 k (⟨(j 1).val, idx2_lt1 j⟩ : Fin 64)) := by
  obtain ⟨p, q, rfl⟩ : ∃ (p : Fin 5000) (q : Fin 64), j = ix2 p q := ⟨j 0, j 1, eq_ix2 j⟩
  exact block_product_apply x0 x1 p q

/-- The grid's point t takes row block t of the left array and of the result, and the whole weights. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row y of the left block at point t is row 5000 t + y of the left array. -/
theorem left_block_apply (c : Dev nD) (t : Fin cfg2.N) (y : S5000x64.Idx) (i : S100000x64.Idx)
    (h0 : (i 0).val = t.val * 5000 + (y 0).val) (h1 : (i 1).val = (y 1).val) :
    (iblk2 V c 0 t : Vec Ideal S5000x64 .f32) y = (V c main_v64 : S100000x64.Idx → EReal) i := by
  obtain ⟨e0, e1, -⟩ := block_indices t
  unfold iblk2
  rw [View.read_apply]
  show V c main_v64 _ = V c main_v64 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The weights' block at every point is the weights. -/
theorem weights_block_apply (c : Dev nD) (t : Fin cfg2.N) (y : S64x64.Idx) :
    (iblk2 V c 1 t : Vec Ideal S64x64 .f32) y = (V c main_arg8 : S64x64.Idx → EReal) y := by
  obtain ⟨-, -, e0, e1, -⟩ := block_indices t
  unfold iblk2
  rw [View.read_apply]
  show V c main_arg8 _ = V c main_arg8 _
  congr 1
  funext a
  apply Fin.ext
  match a with
  | ⟨0, _⟩ => show win2_1.index t 0 * 64 + 1 * (y 0).val = (y 0).val; rw [e0]; omega
  | ⟨1, _⟩ => show win2_1.index t 1 * 64 + 1 * (y 1).val = (y 1).val; rw [e1]; omega

/-- What point t writes back is row block t of the product of the two arrays as the region finds them. -/
theorem flushed_eq (c : Dev nD) (t : Fin cfg2.N) :
    (dat2 (F := Ideal) V c).flushed 2 t
      = ((cfg2.win 2).blk t).view.read (Elt Ideal) (rowsProduct (V c main_v64) (V c main_arg8)) := by
  show (cfg2.win 2).cut (grid2.coords t) ((dat2 V c).after 2 t) = _
  rw [after2_2]
  unfold out2_2
  rw [View.canon_unit_zero offsets_zero]
  simp only [View.ld_unit_zero (S := S5000x64) offsets_zero, View.ld_unit_zero (S := S64x64) offsets_zero]
  obtain ⟨-, -, -, -, e0, e1⟩ := block_indices t
  funext j
  show k2_pay1 (F := Ideal) (iblk2 V c 0 t) (iblk2 V c 1 t) j
    = rowsProduct (V c main_v64) (V c main_arg8) (((cfg2.win 2).blk t).view.emb j)
  refine (block_product_entry (iblk2 V c 0 t) (iblk2 V c 1 t) j).trans ?_
  unfold rowsProduct
  refine Finset.sum_congr rfl fun k _ => ?_
  have hj0 : (j 0).val < 5000 := (j 0).isLt
  have hj1 : (j 1).val < 64 := (j 1).isLt
  have r0 : ((((cfg2.win 2).blk t).view.emb j) 0).val = t.val * 5000 + (j 0).val := by
    show win2_2.index t 0 * 5000 + 1 * (j 0).val = _; rw [e0]; omega
  have r1 : ((((cfg2.win 2).blk t).view.emb j) 1).val = (j 1).val := by
    show win2_2.index t 1 * 64 + 1 * (j 1).val = _; rw [e1]; omega
  rw [left_block_apply V c t (ix2 (⟨(j 0).val, hj0⟩ : Fin 5000) k)
      (ix2 (⟨((((cfg2.win 2).blk t).view.emb j) 0).val, idx2_lt0 _⟩ : Fin 100000) k) r0 rfl,
    weights_block_apply V c t]
  congr 2
  exact congrArg (ix2 k) (Fin.ext r1.symm)

/-- An index of the result array is in point t's block iff its row is among the block's 5000 rows. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v67).slice (win2_2.rect t)).set ↔ _
  rw [View.set_slice_whole, Rect.mem_set_unit]
  exact Iff.rfl

/-- Row r of the result is written by point r / 5000. -/
theorem covered (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 20 := N_2
  let t : Fin cfg2.N := ⟨(i 0).val / 5000, by rw [hN]; omega⟩
  obtain ⟨-, -, -, -, e0, e1⟩ := block_indices t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 64 ≤ (i 1).val ∧ (i 1).val < win2_2.index t (1 : Fin 2) * 64 + 64; rw [e1]; omega

/-- THE FIRST PROJECTION: after the region the result array holds the product of the two arrays the region found. -/
theorem array_eq (c : Dev nD) :
    (dat2 (F := Ideal) V c).arrAt 2 cfg2.N = rowsProduct (V c main_v64) (V c main_arg8) :=
  (dat2 (F := Ideal) V c).arrAt_eq_of_cover 2 (rowsProduct (V c main_v64) (V c main_arg8))
    (fun t _ => flushed_eq V c t) covered

/-- The product at an entry given by its coordinates. -/
theorem rowsProduct_apply (X : S100000x64.Idx → EReal) (W : S64x64.Idx → EReal) (p : Fin 100000) (q : Fin 64) :
    rowsProduct X W (ix2 p q) = ∑ k : Fin 64, X (ix2 p k) * W (ix2 k q) := rfl

/-- Entry (p, q) of the result array is row p of the left array times column q of the weights
    (X and W name the two arrays the region found, read as functions of an index). -/
theorem projection_apply (c : Dev nD) (X : S100000x64.Idx → EReal) (W : S64x64.Idx → EReal)
    (hX : V c main_v64 = X) (hW : V c main_arg8 = W) (p : Fin 100000) (q : Fin 64) :
    (dat2 (F := Ideal) V c).arrAt 2 cfg2.N (ix2 p q) = ∑ k : Fin 64, X (ix2 p k) * W (ix2 k q) := by
  subst hX hW
  rw [array_eq V c]
  rfl

end Cert.KernelIdeal.ProjectRows2

end
-- ==== Proof.ReferenceRows.lean ====
/-
  The reference's first layer read at an entry.

  The reference computes, for every row p and column q, the dense projection h (p, q) = sum over k of x (p, k) * W1 (k, q);
  an aggregate a (p, q) of the neighbours' rows (left unopened here) plus the row's own projection weighted by the
  square d (p) of its degree factor; the bias; then the normalisation ((. - mean q) * rsqrt (var q + eps)) * scale q + shift q
  with one mean, variance, scale and shift per column; and the positive part. Every step is an entrywise operation on
  arrays in which a per-column (or per-row) vector has been repeated along the other axis, so at an entry (p, q) each
  repeated vector is read at its own coordinate. The second layer starts with the projection of that result by W2.
  Products and sums are kept grouped as the operations apply them.
-/
import proofs.«166785_j7679401525531_2_alg».proof.Proof.Gen.ReferenceIdeal.Read
import Idealize.ShloMosaic.Lib.ValueIdx
import Idealize.ShloMosaic.PureOps.Ideal.Laws

noncomputable section

open scoped BigOperators
open Idealize.ShloMosaic Idealize.ShloMosaic.ValueIdx

namespace Cert.ReferenceIdeal.Rows

open Cert.ReferenceIdeal

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 x4 x5 x6 x7 : (⟨S64, .f32⟩ : BufTy).Contents (Elt Ideal))
  (x8 : (⟨S64x64, .f32⟩ : BufTy).Contents (Elt Ideal))

/-! ## The two dense projections -/

/-- Entry (p, q) of the first projection: row p of x times column q of W1. -/
theorem projection1_apply (p : Fin 100000) (q : Fin 64) :
    Read.val_main_v4 (F := Ideal) x0 x2 (ix2 p q) = ∑ k : Fin 128, x0 (ix2 p k) * x2 (ix2 k q) := by
  rw [Read.val_main_v4_apply]
  refine Finset.sum_congr rfl fun k _ => ?_
  have el : Read.lidx_main_v4 (ix2 p q) k = ix2 p k := funext fun a => by
    match a with
    | ⟨0, _⟩ => rfl
    | ⟨1, _⟩ => rfl
  have er : Read.ridx_main_v4 (ix2 p q) k = ix2 k q := funext fun a => by
    match a with
    | ⟨0, _⟩ => rfl
    | ⟨1, _⟩ => rfl
  rw [el, er]

/-- Entry (p, q) of the second projection: row p of the first layer's result times column q of W2. -/
theorem projection2_apply (p : Fin 100000) (q : Fin 64) :
    Read.val_main_v64 (F := Ideal) x0 x1 x2 x3 x4 x5 x6 x7 x8 (ix2 p q)
      = ∑ k : Fin 64, Read.val_main_v63 (F := Ideal) x0 x1 x2 x3 x4 x5 x6 x7 (ix2 p k) * x8 (ix2 k q) := by
  rw [Read.val_main_v64_apply]
  refine Finset.sum_congr rfl fun k _ => ?_
  have el : Read.lidx_main_v64 (ix2 p q) k = ix2 p k := funext fun a => by
    match a with
    | ⟨0, _⟩ => rfl
    | ⟨1, _⟩ => rfl
  have er : Read.ridx_main_v64 (ix2 p q) k = ix2 k q := funext fun a => by
    match a with
    | ⟨0, _⟩ => rfl
    | ⟨1, _⟩ => rfl
  rw [el, er]

/-! ## The first normalisation's per-column factor -/

/-- The factor of column q: the reciprocal square root of the column's variance plus the small constant. -/
theorem invStd1_apply (q : Fin 64) :
    Read.val_main_v53 (F := Ideal) x7 (ix1 q) = Ideal.rsqrt (x7 (ix1 q) + Ideal.ofBits .f32 0x3727C5AC#32) := by
  rw [Read.val_main_v53_apply, Read.val_main_v52_apply, Read.val_main_v51_apply, Read.val_main_cst_8_apply]
  rfl

/-! ## Repeated vectors read at an entry -/

/-- The degree factor's square, repeated along the columns, is read at the row. -/
theorem degreeSq_at (p : Fin 100000) (q : Fin 64) :
    Read.val_main_v42 (F := Ideal) x1 (ix2 p q) = Read.val_main_v40 (F := Ideal) x1 (ix1 p) := by
  rw [Read.val_main_v42_apply, Read.val_main_v41_apply]
  exact congrArg (Read.val_main_v40 (F := Ideal) x1) (funext fun a => by match a with | ⟨0, _⟩ => rfl)

/-- The bias, repeated along the rows, is read at the column. -/
theorem bias_at (p : Fin 100000) (q : Fin 64) : Read.val_main_v46 (F := Ideal) x3 (ix2 p q) = x3 (ix1 q) := by
  rw [Read.val_main_v46_apply, Read.val_main_v45_apply]
  exact congrArg x3 (funext fun a => by match a with | ⟨0, _⟩ => rfl)

/-- So is the mean ... -/
theorem mean_at (p : Fin 100000) (q : Fin 64) : Read.val_main_v49 (F := Ideal) x6 (ix2 p q) = x6 (ix1 q) := by
  rw [Read.val_main_v49_apply, Read.val_main_v48_apply]
  exact congrArg x6 (funext fun a => by match a with | ⟨0, _⟩ => rfl)

/-- ... the normalising factor ... -/
theorem invStd_at (p : Fin 100000) (q : Fin 64) :
    Read.val_main_v55 (F := Ideal) x7 (ix2 p q) = Read.val_main_v53 (F := Ideal) x7 (ix1 q) := by
  rw [Read.val_main_v55_apply, Read.val_main_v54_apply]
  exact congrArg (Read.val_main_v53 (F := Ideal) x7) (funext fun a => by match a with | ⟨0, _⟩ => rfl)

/-- ... the scale ... -/
theorem scale_at (p : Fin 100000) (q : Fin 64) : Read.val_main_v58 (F := Ideal) x4 (ix2 p q) = x4 (ix1 q) := by
  rw [Read.val_main_v58_apply, Read.val_main_v57_apply]
  exact congrArg x4 (funext fun a => by match a with | ⟨0, _⟩ => rfl)

/-- ... and the shift. -/
theorem shift_at (p : Fin 100000) (q : Fin 64) : Read.val_main_v61 (F := Ideal) x5 (ix2 p q) = x5 (ix1 q) := by
  rw [Read.val_main_v61_apply, Read.val_main_v60_apply]
  exact congrArg x5 (funext fun a => by match a with | ⟨0, _⟩ => rfl)

/-- The positive part compares with the zero constant, which is the extended real 0. -/
theorem zero_at (i : S100000x64.Idx) : Read.val_main_call0_v0 (F := Ideal) i = 0 := by
  rw [Read.val_main_call0_v0_apply, Read.val_main_call0_cst_apply]
  exact Ideal.ofBits_zero_f32

/-! ## The first layer at an entry -/

/-- Entry (p, q) of the first layer's result. -/
theorem layer1_apply (p : Fin 100000) (q : Fin 64) :
    Read.val_main_v63 (F := Ideal) x0 x1 x2 x3 x4 x5 x6 x7 (ix2 p q)
      = max ((((Read.val_main_v39 (F := Ideal) x0 x1 x2 (ix2 p q)
                + Read.val_main_v40 (F := Ideal) x1 (ix1 p) * Read.val_main_v4 (F := Ideal) x0 x2 (ix2 p q)) + x3 (ix1 q))
              - x6 (ix1 q)) * Read.val_main_v53 (F := Ideal) x7 (ix1 q) * x4 (ix1 q) + x5 (ix1 q)) 0 := by
  rw [Read.val_main_v63_apply, Read.val_main_v62_apply, Read.val_main_v59_apply, Read.val_main_v56_apply,
    Read.val_main_v50_apply, Read.val_main_v47_apply, Read.val_main_v44_apply, Read.val_main_v43_apply,
    degreeSq_at, bias_at, mean_at, invStd_at, scale_at, shift_at, zero_at]
  simp only [Ideal.addf_def, Ideal.subf_def, Ideal.mulf_def, Ideal.maximumf_def]

end Cert.ReferenceIdeal.Rows

end
-- ==== Proof.FirstLayer.lean ====
/-
  The first graph-convolution layer and the second projection: the kernel's boundaries hold the reference's stages.

  Walking the program's boundaries from the launch: the first region's output is the feature matrix times the first
  weight matrix, row by row, which is the reference's product.  The rows aggregated over the edges are then the
  reference's (the aggregation is the same operations on the same operands).  The second region's output is, entry by
  entry, the folded normalisation of the aggregated row plus the node's own weighted row, followed by the ReLU; the
  reference's normalisation is the unfolded form, and the two agree by the affine law: under the precondition the
  bias, mean, weight and offset are real and the variance is a real ≥ 0, so the reciprocal standard deviation is a
  positive real.  The third region's output is that array times the second weight matrix, the reference's second
  product, and the second aggregation follows as the first did.
-/
import proofs.«166785_j7679401525531_2_alg».proof.Proof.Boundaries
import proofs.«166785_j7679401525531_2_alg».proof.Proof.EdgeStage
import proofs.«166785_j7679401525531_2_alg».proof.Proof.ProjectRows1
import proofs.«166785_j7679401525531_2_alg».proof.Proof.ProjectRows2
import proofs.«166785_j7679401525531_2_alg».proof.Proof.NormaliseRows
import proofs.«166785_j7679401525531_2_alg».proof.Proof.EntryRows
import proofs.«166785_j7679401525531_2_alg».proof.Proof.AffineLaw
import proofs.«166785_j7679401525531_2_alg».proof.Proof.Domain
import proofs.«166785_j7679401525531_2_alg».proof.Proof.ReferenceRows
import proofs.«166785_j7679401525531_2_alg».proof.Proof.Gen.ReferenceIdeal.Read

set_option maxRecDepth 16384

noncomputable section

namespace Cert.KernelIdeal.FirstLayer

open Cert.KernelIdeal Cert.KernelIdeal.Gen
open Idealize.ShloMosaic Idealize.ShloMosaic.TcCoe Idealize.SL.Sem Idealize.ShloMosaic.ValueIdx

variable [Cert.Pre_finite_inputs.Facts]
variable (m : (ℓ : Loc nD τ sig) → Buf (Elt Ideal) ℓ) (ρ : Dev nD → PrngReg)

/-- The launch arrays the entry lemmas do not name, each read as a function of an index. -/
abbrev features (c : Dev nD) : S100000x128.Idx → EReal := m ((c : Thread nD τ).loc main_arg0)
abbrev matrix1 (c : Dev nD) : S128x64.Idx → EReal := m ((c : Thread nD τ).loc main_arg2)
abbrev matrix2 (c : Dev nD) : S64x64.Idx → EReal := m ((c : Thread nD τ).loc main_arg8)

/-- The first region leaves the reference's first product. -/
theorem projection1_eq (c : Dev nD) :
    W2 m ρ c (Proc.devRef .tc main_v48) = Cert.ReferenceIdeal.Read.val_main_v4 (F := Ideal) (features m c) (matrix1 m c) := by
  refine (W2_arr m ρ c 2).trans ?_
  rw [ProjectRows1.array_eq (V1 m ρ) c]
  have h0 : V1 m ρ c main_arg0 = m ((c : Thread nD τ).loc main_arg0) := Boundaries.arg0_at1 m ρ c
  have h2 : V1 m ρ c main_arg2 = m ((c : Thread nD τ).loc main_arg2) := Boundaries.arg2_at1 m ρ c
  rw [h0, h2]
  funext i
  obtain ⟨p, q, rfl⟩ : ∃ (p : Fin 100000) (q : Fin 64), i = ix2 p q := ⟨i 0, i 1, eq_ix2 i⟩
  rw [ProjectRows1.rowsProduct_apply, Cert.ReferenceIdeal.Rows.projection1_apply]

/-- The rows aggregated over the edges before the second region are the reference's. -/
theorem aggregate1_eq (c : Dev nD) :
    W3 m ρ c (Proc.devRef .tc main_v63) = Cert.ReferenceIdeal.Read.val_main_v39 (F := Ideal) (features m c) (EntryRows.edgeList m c) (matrix1 m c) :=
  EdgeStage.aggregate1_eq m ρ c (projection1_eq m ρ c)

/-- The second region leaves the reference's first layer: folded and unfolded normalisation agree entry by entry. -/
theorem layer1_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = (fun _ => 1#1)) :
    W4 m ρ c (Proc.devRef .tc main_v64) = Cert.ReferenceIdeal.Read.val_main_v63 (F := Ideal) (features m c) (EntryRows.edgeList m c) (matrix1 m c) (EntryRows.bias1 m c) (EntryRows.gain1 m c) (EntryRows.offset1 m c) (EntryRows.mean1 m c) (EntryRows.variance1 m c) := by
  obtain ⟨r3, r4, r5, r6, v7, -, -, -, -, -⟩ := Cert.Domain.rows_of_pre _ _ _ _ _ _ _ _ _ _ _ _ _ _ _ _ _ _ hpre
  refine (W4_arr m ρ c 5).trans ?_
  funext i
  obtain ⟨p, q, rfl⟩ : ∃ (p : Fin 100000) (q : Fin 64), i = ix2 p q := ⟨i 0, i 1, eq_ix2 i⟩
  refine (NormaliseRows.arrAt_apply (V3 m ρ) c p q).trans ?_
  have eA : NormaliseRows.aggregated (V3 m ρ) c = Cert.ReferenceIdeal.Read.val_main_v39 (F := Ideal) (features m c) (EntryRows.edgeList m c) (matrix1 m c) :=
    aggregate1_eq m ρ c
  have eH : NormaliseRows.projected (V3 m ρ) c = Cert.ReferenceIdeal.Read.val_main_v4 (F := Ideal) (features m c) (matrix1 m c) :=
    (Boundaries.v48_at3 m ρ c).trans (projection1_eq m ρ c)
  rw [eA, eH, EntryRows.rowFactor1_apply m ρ c p, EntryRows.scaleRow1_apply m ρ c q, EntryRows.shiftRow1_apply m ρ c q,
    Cert.ReferenceIdeal.Rows.layer1_apply]
  obtain ⟨x, hx, hv⟩ := v7 q
  refine congrArg (fun t => max t (0 : EReal)) ?_
  exact Cert.AffineLaw.fold _ _ _ _ _ _ (r4 q) (r3 q) (r6 q) (r5 q)
    (by
      show ∃ r : ℝ, 0 < r ∧ Cert.ReferenceIdeal.Read.val_main_v53 (F := Ideal) (EntryRows.variance1 m c) (ix1 q) = (r : EReal)
      rw [Cert.ReferenceIdeal.Rows.invStd1_apply, show EntryRows.variance1 m c (ix1 q) = (x : EReal) from hv]
      exact Cert.AffineLaw.rsqrt_shift_real x hx)

/-- The third region leaves the reference's second product. -/
theorem projection2_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = (fun _ => 1#1)) :
    W6 m ρ c (Proc.devRef .tc main_v67) = Cert.ReferenceIdeal.Read.val_main_v64 (F := Ideal) (features m c) (EntryRows.edgeList m c) (matrix1 m c) (EntryRows.bias1 m c) (EntryRows.gain1 m c) (EntryRows.offset1 m c) (EntryRows.mean1 m c) (EntryRows.variance1 m c) (matrix2 m c) := by
  refine (W6_arr m ρ c 2).trans ?_
  rw [ProjectRows2.array_eq (V5 m ρ) c]
  have h0 : V5 m ρ c main_v64 = Cert.ReferenceIdeal.Read.val_main_v63 (F := Ideal) (features m c) (EntryRows.edgeList m c) (matrix1 m c) (EntryRows.bias1 m c) (EntryRows.gain1 m c) (EntryRows.offset1 m c) (EntryRows.mean1 m c) (EntryRows.variance1 m c) :=
    (Boundaries.v64_at5 m ρ c).trans (layer1_eq m ρ c hpre)
  have h8 : V5 m ρ c main_arg8 = m ((c : Thread nD τ).loc main_arg8) := Boundaries.arg8_at5 m ρ c
  rw [h0, h8]
  funext i
  obtain ⟨p, q, rfl⟩ : ∃ (p : Fin 100000) (q : Fin 64), i = ix2 p q := ⟨i 0, i 1, eq_ix2 i⟩
  rw [ProjectRows2.rowsProduct_apply, Cert.ReferenceIdeal.Rows.projection2_apply]

/-- The rows aggregated over the edges before the last region are the reference's. -/
theorem aggregate2_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = (fun _ => 1#1)) :
    W7 m ρ c (Proc.devRef .tc main_v82) = Cert.ReferenceIdeal.Read.val_main_v99 (F := Ideal) (features m c) (EntryRows.edgeList m c) (matrix1 m c) (EntryRows.bias1 m c) (EntryRows.gain1 m c) (EntryRows.offset1 m c) (EntryRows.mean1 m c) (EntryRows.variance1 m c) (matrix2 m c) :=
  EdgeStage.aggregate2_eq m ρ c (projection2_eq m ρ c hpre)

end Cert.KernelIdeal.FirstLayer

end
-- ==== Proof.ReferenceRows2.lean ====
/-
  The reference's second layer and its head, read at an entry.

  The second layer repeats the first on the first layer's result: an aggregate of the neighbours' rows (left unopened
  here) plus the row's own projection by W2 weighted by the squared degree factor, the bias, the per-column
  normalisation ((. - mean q) * rsqrt (var q + eps)) * scale q + shift q, and the positive part. The head takes row p of
  that result through a 64 x 32 matrix with a bias row and a positive part, then through a 32 x 1 matrix with a bias, and
  applies the logistic function, which the program spells 1 / (1 + exp (- z)); the column vector is finally recast to a
  vector. Every repeated vector is read at its own coordinate, and products and sums stay grouped as the operations
  apply them.
-/
import proofs.«166785_j7679401525531_2_alg».proof.Proof.Gen.ReferenceIdeal.Read
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.ReferenceIdeal.Rows

open Cert.ReferenceIdeal

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal)) (x15 : (⟨S32, .f32⟩ : BufTy).Contents (Elt Ideal))
  (x16 : (⟨S32x1, .f32⟩ : BufTy).Contents (Elt Ideal)) (x17 : (⟨S1, .f32⟩ : BufTy).Contents (Elt Ideal))

/-! ## The second normalisation's per-column factor -/

/-- The factor of column q: the reciprocal square root of the column's variance plus the small constant. -/
theorem invStd2_apply (q : Fin 64) :
    Read.val_main_v113 (F := Ideal) x13 (ix1 q) = Ideal.rsqrt (x13 (ix1 q) + Ideal.ofBits .f32 0x3727C5AC#32) := by
  rw [Read.val_main_v113_apply, Read.val_main_v112_apply, Read.val_main_v111_apply, Read.val_main_cst_19_apply]
  rfl

/-! ## Repeated vectors read at an entry -/

/-- The degree factor's square, repeated along the columns, is read at the row. -/
theorem degreeSq2_at (p : Fin 100000) (q : Fin 64) :
    Read.val_main_v102 (F := Ideal) x1 (ix2 p q) = Read.val_main_v100 (F := Ideal) x1 (ix1 p) := by
  rw [Read.val_main_v102_apply, Read.val_main_v101_apply]
  exact congrArg (Read.val_main_v100 (F := Ideal) x1) (funext fun a => by match a with | ⟨0, _⟩ => rfl)

/-- The bias, repeated along the rows, is read at the column. -/
theorem bias2_at (p : Fin 100000) (q : Fin 64) :
    Read.val_main_v106 (F := Ideal) x9 (ix2 p q) = x9 (ix1 q) := by
  rw [Read.val_main_v106_apply, Read.val_main_v105_apply]
  exact congrArg x9 (funext fun a => by match a with | ⟨0, _⟩ => rfl)

/-- So is the mean ... -/
theorem mean2_at (p : Fin 100000) (q : Fin 64) :
    Read.val_main_v109 (F := Ideal) x12 (ix2 p q) = x12 (ix1 q) := by
  rw [Read.val_main_v109_apply, Read.val_main_v108_apply]
  exact congrArg x12 (funext fun a => by match a with | ⟨0, _⟩ => rfl)

/-- ... the normalising factor ... -/
theorem invStd2_at (p : Fin 100000) (q : Fin 64) :
    Read.val_main_v115 (F := Ideal) x13 (ix2 p q) = Read.val_main_v113 (F := Ideal) x13 (ix1 q) := by
  rw [Read.val_main_v115_apply, Read.val_main_v114_apply]
  exact congrArg (Read.val_main_v113 (F := Ideal) x13) (funext fun a => by match a with | ⟨0, _⟩ => rfl)

/-- ... the scale ... -/
theorem scale2_at (p : Fin 100000) (q : Fin 64) :
    Read.val_main_v118 (F := Ideal) x10 (ix2 p q) = x10 (ix1 q) := by
  rw [Read.val_main_v118_apply, Read.val_main_v117_apply]
  exact congrArg x10 (funext fun a => by match a with | ⟨0, _⟩ => rfl)

/-- ... and the shift. -/
theorem shift2_at (p : Fin 100000) (q : Fin 64) :
    Read.val_main_v121 (F := Ideal) x11 (ix2 p q) = x11 (ix1 q) := by
  rw [Read.val_main_v121_apply, Read.val_main_v120_apply]
  exact congrArg x11 (funext fun a => by match a with | ⟨0, _⟩ => rfl)

/-- The positive part compares with the zero constant, which is the extended real 0. -/
theorem zero2_at (i : S100000x64.Idx) : Read.val_main_call1_v0 (F := Ideal) i = 0 := by
  rw [Read.val_main_call1_v0_apply, Read.val_main_call1_cst_apply]
  exact Ideal.ofBits_zero_f32

/-! ## The second layer at an entry -/

/-- Entry (p, q) of the second layer's result. -/
theorem layer2_apply (p : Fin 100000) (q : Fin 64) :
    Read.val_main_v123 (F := Ideal) x0 x1 x2 x3 x4 x5 x6 x7 x8 x9 x10 x11 x12 x13 (ix2 p q)
      = max ((((Read.val_main_v99 (F := Ideal) x0 x1 x2 x3 x4 x5 x6 x7 x8 (ix2 p q)
                + Read.val_main_v100 (F := Ideal) x1 (ix1 p) * Read.val_main_v64 (F := Ideal) x0 x1 x2 x3 x4 x5 x6 x7 x8 (ix2 p q)) + x9 (ix1 q))
              - x12 (ix1 q)) * Read.val_main_v113 (F := Ideal) x13 (ix1 q) * x10 (ix1 q) + x11 (ix1 q)) 0 := by
  rw [Read.val_main_v123_apply, Read.val_main_v122_apply, Read.val_main_v119_apply, Read.val_main_v116_apply,
    Read.val_main_v110_apply, Read.val_main_v107_apply, Read.val_main_v104_apply, Read.val_main_v103_apply,
    degreeSq2_at, bias2_at, mean2_at, invStd2_at, scale2_at, shift2_at, zero2_at]
  simp only [Ideal.addf_def, Ideal.subf_def, Ideal.mulf_def, Ideal.maximumf_def]

end Cert.ReferenceIdeal.Rows

end
-- ==== Proof.ReferenceHead.lean ====
/-
  The reference's head read at an entry.

  Row p of the second layer's result goes through a 64 x 32 matrix with a bias row and a positive part, then through a
  32 x 1 matrix with a bias, and through the logistic function, which the program spells 1 / (1 + exp (- z)) with the
  constant 1 written as a float word; the resulting column is finally recast to a vector, entry p of which is entry
  (p, 0) of the column. Products and sums stay grouped as the operations apply them.
-/
import proofs.«166785_j7679401525531_2_alg».proof.Proof.Gen.ReferenceIdeal.Read
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.ReferenceIdeal.Rows

open Cert.ReferenceIdeal

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 x4 x5 x6 x7 : (⟨S64, .f32⟩ : BufTy).Contents (Elt Ideal))
  (x8 : (⟨S64x64, .f32⟩ : BufTy).Contents (Elt Ideal)) (x9 x10 x11 x12 x13 : (⟨S64, .f32⟩ : BufTy).Contents (Elt Ideal))
  (x14 : (⟨S64x32, .f32⟩ : BufTy).Contents (Elt Ideal)) (x15 : (⟨S32, .f32⟩ : BufTy).Contents (Elt Ideal))
  (x16 : (⟨S32x1, .f32⟩ : BufTy).Contents (Elt Ideal)) (x17 : (⟨S1, .f32⟩ : BufTy).Contents (Elt Ideal))

/-! ## The hidden layer -/

/-- Entry (p, j) of the first head product: row p of the second layer's result times column j of the 64 x 32 matrix. -/
theorem headProduct1_apply (p : Fin 100000) (j : Fin 32) :
    Read.val_main_v124 (F := Ideal) x0 x1 x2 x3 x4 x5 x6 x7 x8 x9 x10 x11 x12 x13 x14 (ix2 p j)
      = ∑ k : Fin 64, Read.val_main_v123 (F := Ideal) x0 x1 x2 x3 x4 x5 x6 x7 x8 x9 x10 x11 x12 x13 (ix2 p k) * x14 (ix2 k j) := by
  rw [Read.val_main_v124_apply]
  refine Finset.sum_congr rfl fun k _ => ?_
  have el : Read.lidx_main_v124 (ix2 p j) k = ix2 p k := funext fun a => by
    match a with
    | ⟨0, _⟩ => rfl
    | ⟨1, _⟩ => rfl
  have er : Read.ridx_main_v124 (ix2 p j) k = ix2 k j := funext fun a => by
    match a with
    | ⟨0, _⟩ => rfl
    | ⟨1, _⟩ => rfl
  rw [el, er]

/-- The hidden bias, repeated along the rows, is read at the column. -/
theorem hiddenBias_at (p : Fin 100000) (j : Fin 32) : Read.val_main_v126 (F := Ideal) x15 (ix2 p j) = x15 (ix1 j) := by
  rw [Read.val_main_v126_apply, Read.val_main_v125_apply]
  exact congrArg x15 (funext fun a => by match a with | ⟨0, _⟩ => rfl)

/-- The positive part compares with the zero constant, which is the extended real 0. -/
theorem hiddenZero_at (i : S100000x32.Idx) : Read.val_main_call2_v0 (F := Ideal) i = 0 := by
  rw [Read.val_main_call2_v0_apply, Read.val_main_call2_cst_apply]
  exact Ideal.ofBits_zero_f32

/-- Entry (p, j) of the hidden layer. -/
theorem hidden_apply (p : Fin 100000) (j : Fin 32) :
    Read.val_main_v128 (F := Ideal) x0 x1 x2 x3 x4 x5 x6 x7 x8 x9 x10 x11 x12 x13 x14 x15 (ix2 p j)
      = max ((∑ k : Fin 64, Read.val_main_v123 (F := Ideal) x0 x1 x2 x3 x4 x5 x6 x7 x8 x9 x10 x11 x12 x13 (ix2 p k) * x14 (ix2 k j)) + x15 (ix1 j)) 0 := by
  rw [Read.val_main_v128_apply, Read.val_main_v127_apply, hiddenBias_at, hiddenZero_at, headProduct1_apply]
  simp only [Ideal.addf_def, Ideal.maximumf_def]

/-! ## The output column -/

/-- Entry (p, 0) of the second head product: row p of the hidden layer times the 32 x 1 matrix. -/
theorem headProduct2_apply (p : Fin 100000) :
    Read.val_main_v129 (F := Ideal) x0 x1 x2 x3 x4 x5 x6 x7 x8 x9 x10 x11 x12 x13 x14 x15 x16 (ix2 p (0 : Fin 1))
      = ∑ j : Fin 32, Read.val_main_v128 (F := Ideal) x0 x1 x2 x3 x4 x5 x6 x7 x8 x9 x10 x11 x12 x13 x14 x15 (ix2 p j) * x16 (ix2 j (0 : Fin 1)) := by
  rw [Read.val_main_v129_apply]
  refine Finset.sum_congr rfl fun j _ => ?_
  have el : Read.lidx_main_v129 (ix2 p (0 : Fin 1)) j = ix2 p j := funext fun a => by
    match a with
    | ⟨0, _⟩ => rfl
    | ⟨1, _⟩ => rfl
  have er : Read.ridx_main_v129 (ix2 p (0 : Fin 1)) j = ix2 j (0 : Fin 1) := funext fun a => by
    match a with
    | ⟨0, _⟩ => rfl
    | ⟨1, _⟩ => rfl
  rw [el, er]

/-- The output bias, one number repeated along the rows. -/
theorem outputBias_at (i : S100000x1.Idx) : Read.val_main_v131 (F := Ideal) x17 i = x17 (ix1 (0 : Fin 1)) := by
  rw [Read.val_main_v131_apply, Read.val_main_v130_apply]
  exact congrArg x17 (funext fun a => by match a with | ⟨0, _⟩ => rfl)

/-- The constant 1 of the sum 1 + exp (- z) ... -/
theorem one_at (i : S100000x1.Idx) : Read.val_main_v135 (F := Ideal) i = 1 := by
  rw [Read.val_main_v135_apply, Read.val_main_cst_20_apply]
  exact Ideal.ofBits_one_f32

/-- ... and the constant 1 of the quotient. -/
theorem one_at' (i : S100000x1.Idx) : Read.val_main_v137 (F := Ideal) i = 1 := by
  rw [Read.val_main_v137_apply, Read.val_main_cst_21_apply]
  exact Ideal.ofBits_one_f32

/-- The quotient 1 / (1 + exp (- z)) at an entry of the column is the logistic function of z there. -/
theorem column_apply (i : S100000x1.Idx) :
    Read.val_main_v138 (F := Ideal) x0 x1 x2 x3 x4 x5 x6 x7 x8 x9 x10 x11 x12 x13 x14 x15 x16 x17 i
      = Ideal.logistic (Read.val_main_v129 (F := Ideal) x0 x1 x2 x3 x4 x5 x6 x7 x8 x9 x10 x11 x12 x13 x14 x15 x16 i + x17 (ix1 (0 : Fin 1))) := by
  rw [Read.val_main_v138_apply, Read.val_main_v136_apply, Read.val_main_v134_apply, Read.val_main_v133_apply,
    Read.val_main_v132_apply, outputBias_at, one_at, one_at']
  simp only [Ideal.hostDivf_def, Ideal.hostUnary_exp_def, Ideal.hostNegf_def, Ideal.negf_def, Ideal.addf_def, Ideal.logistic]

/-! ## The head at an entry -/

/-- Entry p of the result. -/
theorem head_apply (p : Fin 100000) :
    Read.val_main_v139 (F := Ideal) x0 x1 x2 x3 x4 x5 x6 x7 x8 x9 x10 x11 x12 x13 x14 x15 x16 x17 (ix1 p)
      = Ideal.logistic ((∑ j : Fin 32,
          (max ((∑ k : Fin 64, Read.val_main_v123 (F := Ideal) x0 x1 x2 x3 x4 x5 x6 x7 x8 x9 x10 x11 x12 x13 (ix2 p k) * x14 (ix2 k j)) + x15 (ix1 j)) 0)
            * x16 (ix2 j (0 : Fin 1))) + x17 (ix1 (0 : Fin 1))) := by
  have e : Read.idx_main_v139 (ix1 p) = ix2 p (0 : Fin 1) := funext fun a => by
    match a with
    | ⟨0, _⟩ => exact Fin.ext (Nat.div_one _)
    | ⟨1, _⟩ => rfl
  rw [Read.val_main_v139_apply, e, column_apply, headProduct2_apply]
  refine congrArg (fun z => Ideal.logistic (z + x17 (ix1 (0 : Fin 1)))) ?_
  exact Finset.sum_congr rfl fun j _ => by rw [hidden_apply]

end Cert.ReferenceIdeal.Rows

end
-- ==== Proof.Layers.lean ====
/-
  The second graph-convolution layer, the head and the result: the kernel's last boundary holds the reference's last
  stage.

  The last region's output column is, row by row, the logistic of a two-layer head applied to the normalised second
  layer: the folded normalisation of the second aggregation plus the node's own weighted row, a ReLU, a product with
  the first head matrix plus its bias row, a ReLU, a product with the second head matrix plus its bias.  The reference
  computes the same with the unfolded normalisation.  Entry by entry, inside both sums, the two normalisations agree
  by the affine law (the second layer's bias, mean, weight and offset are real and its variance is a real ≥ 0 under
  the precondition); everything around them is the same arithmetic on both sides.  The program's result is that column
  read as a flat vector, as the reference's is.
-/
import proofs.«166785_j7679401525531_2_alg».proof.Proof.Boundaries
import proofs.«166785_j7679401525531_2_alg».proof.Proof.EdgeStage
import proofs.«166785_j7679401525531_2_alg».proof.Proof.HeadArray
import proofs.«166785_j7679401525531_2_alg».proof.Proof.EntryRows
import proofs.«166785_j7679401525531_2_alg».proof.Proof.AffineLaw
import proofs.«166785_j7679401525531_2_alg».proof.Proof.Domain
import proofs.«166785_j7679401525531_2_alg».proof.Proof.LibRowLayout
import proofs.«166785_j7679401525531_2_alg».proof.Proof.FirstLayer
import proofs.«166785_j7679401525531_2_alg».proof.Proof.ReferenceRows2
import proofs.«166785_j7679401525531_2_alg».proof.Proof.ReferenceHead
import proofs.«166785_j7679401525531_2_alg».proof.Proof.Gen.ReferenceIdeal.Read

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx

variable [Cert.Pre_finite_inputs.Facts]
variable (m : (ℓ : Loc nD τ sig) → Buf (Elt Ideal) ℓ) (ρ : Dev nD → PrngReg)

open Cert.KernelIdeal.FirstLayer (features matrix1 matrix2)

/-- Replacing the left operand of a sum, a product or a maximum by an equal one. -/
theorem add_left_eq {a b c : EReal} (h : a = b) : a + c = b + c := h ▸ rfl
theorem mul_left_eq {a b c : EReal} (h : a = b) : a * c = b * c := h ▸ rfl
theorem max_left_eq {a b c : EReal} (h : a = b) : max a c = max b c := h ▸ rfl

/-- The program's result is the reference's result, as functions of the launch arrays. -/
theorem result_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = (fun _ => 1#1)) :
    W9 m ρ c (Proc.devRef .tc main_v84) = Cert.ReferenceIdeal.Read.val_main_v139 (F := Ideal) (features m c) (EntryRows.edgeList m c) (matrix1 m c) (EntryRows.bias1 m c) (EntryRows.gain1 m c) (EntryRows.offset1 m c) (EntryRows.mean1 m c) (EntryRows.variance1 m c) (matrix2 m c) (EntryRows.bias2 m c) (EntryRows.gain2 m c) (EntryRows.offset2 m c) (EntryRows.mean2 m c) (EntryRows.variance2 m c) (EntryRows.headMatrix1 m c) (EntryRows.headBiasVec1 m c) (EntryRows.headMatrix2 m c) (EntryRows.headBiasVec2 m c) := by
  obtain ⟨-, -, -, -, -, r9, r10, r11, r12, v13⟩ := Cert.Domain.rows_of_pre _ _ _ _ _ _ _ _ _ _ _ _ _ _ _ _ _ _ hpre
  rw [EdgeStage.result_eq m ρ c]
  funext i
  obtain ⟨p, rfl⟩ : ∃ p : Fin 100000, i = ix1 p := ⟨i 0, eq_ix1 i⟩
  refine (Cert.RowLayout.castFlat_apply _ _ p).trans ?_
  refine (congrFun (W8_arr m ρ c 9) (ix2 p (0 : Fin 1))).trans ?_
  refine (HeadArray.column_entry (V7 m ρ) c p).trans ?_
  have eA : HeadArray.aggRows (V7 m ρ) c = Cert.ReferenceIdeal.Read.val_main_v99 (F := Ideal) (features m c) (EntryRows.edgeList m c) (matrix1 m c) (EntryRows.bias1 m c) (EntryRows.gain1 m c) (EntryRows.offset1 m c) (EntryRows.mean1 m c) (EntryRows.variance1 m c) (matrix2 m c) :=
    FirstLayer.aggregate2_eq m ρ c hpre
  have eH : HeadArray.projRows (V7 m ρ) c = Cert.ReferenceIdeal.Read.val_main_v64 (F := Ideal) (features m c) (EntryRows.edgeList m c) (matrix1 m c) (EntryRows.bias1 m c) (EntryRows.gain1 m c) (EntryRows.offset1 m c) (EntryRows.mean1 m c) (EntryRows.variance1 m c) (matrix2 m c) :=
    (Boundaries.v67_at7 m ρ c).trans (FirstLayer.projection2_eq m ρ c hpre)
  rw [eA, eH, EntryRows.rowWeight2_apply m ρ c p, EntryRows.headW1_eq m ρ c, EntryRows.headW2_eq m ρ c, EntryRows.headB2_apply m ρ c]
  simp only [EntryRows.scaleRow2_apply m ρ c, EntryRows.shiftRow2_apply m ρ c, EntryRows.headB1_apply m ρ c]
  rw [Cert.ReferenceIdeal.Rows.head_apply]
  refine congrArg Ideal.logistic ?_
  refine add_left_eq ?_
  refine Finset.sum_congr rfl fun k2 _ => ?_
  refine mul_left_eq ?_
  refine max_left_eq ?_
  refine add_left_eq ?_
  refine Finset.sum_congr rfl fun k1 _ => ?_
  refine mul_left_eq ?_
  rw [Cert.ReferenceIdeal.Rows.layer2_apply]
  obtain ⟨x, hx, hv⟩ := v13 k1
  refine max_left_eq ?_
  exact Cert.AffineLaw.fold _ _ _ _ _ _ (r10 k1) (r9 k1) (r12 k1) (r11 k1)
    (by
      show ∃ r : ℝ, 0 < r ∧ Cert.ReferenceIdeal.Read.val_main_v113 (F := Ideal) (EntryRows.variance2 m c) (ix1 k1) = (r : EReal)
      rw [Cert.ReferenceIdeal.Rows.invStd2_apply, show EntryRows.variance2 m c (ix1 k1) = (x : EReal) from hv]
      exact Cert.AffineLaw.rsqrt_shift_real x hx)

end Cert.KernelIdeal.Layers

end
-- ==== Proof.lean ====
/-
  The certificate: a two-layer graph convolution with folded batch normalisation and a two-layer head, row-blocked
  on the TensorCore, against its plain reference, on the extended reals.

  Both programs project the node features, aggregate the projected rows over the edges with symmetric degree weights,
  add each node's own weighted row, normalise, apply a ReLU, do the same a second time, and finish with a two-layer
  head and a logistic.  They differ in three ways.  The kernel's program does the projections, the normalisations and
  the head in four row-blocked regions of twenty blocks of 5000 rows; on the extended reals a block's rows are the
  whole array's rows, and a matrix unit's product into a zero accumulator is the plain sum.  The kernel's program
  passes the projected rows through a narrower float format before gathering them, which is the identity on the
  extended reals.  And the kernel's program folds the normalisation ((T + b) - mean) * rsqrt (v + ε) * g + β into
  T * (g * rsqrt (v + ε)) + ((b - mean) * g * rsqrt (v + ε) + β); the two agree by distributivity because under the
  precondition b, mean, g, β are real and, the variance being ≥ 0, rsqrt (v + ε) is a positive real.  The gathers and
  the scatter-adds are the same operations on the same operands in both programs and are never opened.
-/
import proofs.«166785_j7679401525531_2_alg».proof.Defs
import proofs.«166785_j7679401525531_2_alg».proof.Proof.Gen.Kernel
import proofs.«166785_j7679401525531_2_alg».proof.Proof.Gen.Kernel.Frame
import proofs.«166785_j7679401525531_2_alg».proof.Proof.Gen.KernelIdeal
import proofs.«166785_j7679401525531_2_alg».proof.Proof.Gen.KernelIdeal.Frame
import proofs.«166785_j7679401525531_2_alg».proof.Proof.Gen.ReferenceIdeal
import proofs.«166785_j7679401525531_2_alg».proof.Proof.Gen.Pre_finite_inputs
import proofs.«166785_j7679401525531_2_alg».proof.Proof.Gen.ReferenceIdeal.Run
import proofs.«166785_j7679401525531_2_alg».proof.Proof.Gen.ReferenceIdeal.Read
import proofs.«166785_j7679401525531_2_alg».proof.Proof.ResultRun
import proofs.«166785_j7679401525531_2_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates, faults nowhere and leaves its arguments: the generated frame. -/
theorem frame_k : Cert.frame_Kernel := fun m ρ _ => Cert.Kernel.Gen.frame m ρ

/-- The idealized kernel terminates, faults nowhere and leaves its arguments: the generated frame. -/
theorem frame_ki : Cert.frame_KernelIdeal := fun m ρ _ => Cert.KernelIdeal.Gen.frame m ρ

/-- The reference terminates, faults nowhere and leaves its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing in this kernel: there is nothing to preserve. -/
theorem preserves : Cert.preserves_Kernel_KernelIdeal := trivial

/-- From memories agreeing on the arguments, under the precondition, both runs end with the same result: the kernel's
    last boundary holds the reference's last stage of the launch arrays. -/
theorem algebraic : Cert.algebraic_KernelIdeal_ReferenceIdeal := by
  intro m ρ m' ρ' hpre hagree
  refine ⟨fun c => Cert.KernelIdeal.Gen.W9 m ρ c (Proc.devRef .tc Cert.KernelIdeal.main_v84),
    Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v139_eq]
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact (Cert.KernelIdeal.Layers.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
